-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S32768x1024 : Shape := ⟨2, ![32768, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S4096x1024 .f32) (main_arg1 : FVec F S4096x1024 .f32) (main_arg2 : FVec F S32768x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  main_v13
-- ==== Kernel.lean ====
abbrev S4096x1024 : Shape := ⟨2, ![4096, 1024]⟩
abbrev S32768x1024 : Shape := ⟨2, ![32768, 1024]⟩
abbrev S36864x1024 : Shape := ⟨2, ![36864, 1024]⟩
abbrev S4096x1 : Shape := ⟨2, ![4096, 1]⟩
abbrev S512x1024 : Shape := ⟨2, ![512, 1024]⟩
abbrev S2048x1024 : Shape := ⟨2, ![2048, 1024]⟩
abbrev S512x1 : Shape := ⟨2, ![512, 1]⟩
abbrev S512x128 : Shape := ⟨2, ![512, 128]⟩
abbrev S512x2048 : Shape := ⟨2, ![512, 2048]⟩
abbrev S512 : Shape := ⟨1, ![512]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S32768x1024, .f32⟩
  | .hbm, ⟨3, _⟩ => ⟨S4096x1024, .bf16⟩
  | .hbm, ⟨4, _⟩ => ⟨S4096x1024, .bf16⟩
  | .hbm, ⟨5, _⟩ => ⟨S32768x1024, .bf16⟩
  | .hbm, ⟨6, _⟩ => ⟨S36864x1024, .bf16⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x1024, .bf16⟩
  | .local _ .vmem, ⟨1, _⟩ => ⟨S2048x1024, .bf16⟩
  | .local _ .vmem, ⟨2, _⟩ => ⟨S2048x1024, .bf16⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x128, .f32⟩
  | .local _ .vmem, ⟨8, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 18], ![false, false]⟩

def k0_cond4 (i : grid0.Coords) : BitVec 1 :=
  let arg1 : BitVec 32 := BitVec.ofNat 32 (i 1).val
  let c17_i32 : BitVec 32 := 17#32
  let v14 : BitVec 1 := Scalar.cmpi .eq arg1 c17_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  concatenates_S4096x1024_S32768x1024_S36864x1024_d0 : Shape.Concatenates [S4096x1024, S32768x1024] S36864x1024 0
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x2048_o0_0_S512x128 : S512x2048.Slices ![0, 0] S512x128
  slices_S512x2048_o0_128_S512x128 : S512x2048.Slices ![0, 128] S512x128
  slices_S512x2048_o0_256_S512x128 : S512x2048.Slices ![0, 256] S512x128
  slices_S512x2048_o0_384_S512x128 : S512x2048.Slices ![0, 384] S512x128
  slices_S512x2048_o0_512_S512x128 : S512x2048.Slices ![0, 512] S512x128
  slices_S512x2048_o0_640_S512x128 : S512x2048.Slices ![0, 640] S512x128
  slices_S512x2048_o0_768_S512x128 : S512x2048.Slices ![0, 768] S512x128
  slices_S512x2048_o0_896_S512x128 : S512x2048.Slices ![0, 896] S512x128
  slices_S512x2048_o0_1024_S512x128 : S512x2048.Slices ![0, 1024] S512x128
  slices_S512x2048_o0_1152_S512x128 : S512x2048.Slices ![0, 1152] S512x128
  slices_S512x2048_o0_1280_S512x128 : S512x2048.Slices ![0, 1280] S512x128
  slices_S512x2048_o0_1408_S512x128 : S512x2048.Slices ![0, 1408] S512x128
  slices_S512x2048_o0_1536_S512x128 : S512x2048.Slices ![0, 1536] S512x128
  slices_S512x2048_o0_1664_S512x128 : S512x2048.Slices ![0, 1664] S512x128
  slices_S512x2048_o0_1792_S512x128 : S512x2048.Slices ![0, 1792] S512x128
  slices_S512x2048_o0_1920_S512x128 : S512x2048.Slices ![0, 1920] S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reducesTo_S4096x1_S_d0_1 : S4096x1.ReducesTo [0, 1] S_
  h_S_ : 0 < S_.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S36864x1024.size a
  hwx0_1 : ∀ i : grid0.Coords, EltTy.bits .bf16 = 32 ∨ (Rect.block (s := S36864x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S32768x1024 : Shape := ⟨2, ![32768, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x32768 : Shape := ⟨2, ![1024, 32768]⟩
abbrev S4096x32768 : Shape := ⟨2, ![4096, 32768]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S32768x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1024x32768, .f32⟩
  | .hbm, ⟨13, _⟩ => ⟨S4096x32768, .f32⟩
  | .hbm, ⟨14, _⟩ => ⟨S_, .f32⟩
  | .hbm, ⟨15, _⟩ => ⟨S4096x32768, .f32⟩
  | .hbm, ⟨16, _⟩ => ⟨S4096x32768, .f32⟩
  | .hbm, ⟨17, _⟩ => ⟨S4096x32768, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S_, .f32⟩
  | .hbm, ⟨25, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  transposes_S32768x1024_S1024x32768_1_0 : S32768x1024.Transposes [1, 0] S1024x32768
  bcast_S_S4096x32768 : S_.BroadcastsInDim S4096x32768 (![] : Fin 0 → Fin S4096x32768.rank)
  reducesTo_S4096x32768_S4096_d1 : S4096x32768.ReducesTo [1] S4096
  reducesTo_S4096x1_S_d0_1 : S4096x1.ReducesTo [0, 1] S_
  dot_S4096x1024_S1024x4096_S4096x4096_1_0_0_1_n_n_wf : DotDims.WF S4096x1024 S1024x4096 S4096x4096 [1] [0] [0] [1] [] []
  dot_S4096x1024_S1024x32768_S4096x32768_1_0_0_1_n_n_wf : DotDims.WF S4096x1024 S1024x32768 S4096x32768 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x32768_S4096x32768_1_0_0_1_n_n : DotDims S4096x1024 S1024x32768 S4096x32768 where
  lhsContracting := [1]
  rhsContracting := [0]
  lhsNonContracting := [0]
  rhsNonContracting := [1]
  lhsBatch := []
  rhsBatch := []
  wf := dot_S4096x1024_S1024x32768_S4096x32768_1_0_0_1_n_n_wf

class Facts : Prop extends Facts₀ where

variable [Facts]
-- ==== Proof.BodyBShared.lean ====
/-
  What the four runs of the fused kernel's body share. The grid is 8 row tiles by 18 column tiles, a point `t` being
  row tile `t / 18` and column tile `t % 18`. The body branches four times on the column tile `j`: `j = 0` (both
  accumulators are zeroed), `j < 2` (a positive tile: the first accumulator grows), `j ≥ 2` (an other tile: the second
  accumulator grows), `j = 17` (both accumulators are summed along the lanes into the two outputs' blocks). Here: the
  four conditions as the body computes them with their closed forms over the 144 points, where the two output windows are
  idle, the staging and scratch memrefs a point's body is called with, and the region's invariant with the two
  accumulators named.
-/
import proofs.«120487_j44160853738083_2_alg».proof.Proof.Gen.Kernel.Frame
import proofs.«120487_j44160853738083_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole-block store made last -/

/-- The offsets of every load and store of the body are zero on both axes. -/
theorem off00 : (![0, 0] : Fin 2 → Nat) = fun _ => 0 := by funext a; fin_cases a <;> rfl

/-- A buffer whose LAST store covers its whole block reads that store's payload, whatever was stored before and whatever
    it held: the earlier pieces are overwritten. -/
theorem read_last_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-! ## The four conditions -/

/-- `j = 0`, as the body's scalar chain computes it. -/
abbrev condZero (i : grid0.Coords) : Prop :=
  (Scalar.cmpi .ne (Scalar.extui (Scalar.cmpi .eq (BitVec.ofNat 32 (i 1).val) 0#32)) 0#32) = 1#1
/-- `j < 2`. -/
abbrev condPos (i : grid0.Coords) : Prop :=
  (Scalar.cmpi .ne (Scalar.extui (Scalar.cmpi .slt (BitVec.ofNat 32 (i 1).val) 2#32)) 0#32) = 1#1
/-- `j ≥ 2`. -/
abbrev condOth (i : grid0.Coords) : Prop :=
  (Scalar.cmpi .ne (Scalar.extui (Scalar.cmpi .sge (BitVec.ofNat 32 (i 1).val) 2#32)) 0#32) = 1#1
/-- `j = 17`. -/
abbrev condLast (i : grid0.Coords) : Prop := k0_cond4 i = 1#1

theorem condZero_iff : ∀ t : Fin cfg0.N, condZero (grid0.coords t) ↔ t.val % 18 = 0 :=
  (by decide +kernel : ∀ t : Fin grid0.N, condZero (grid0.coords t) ↔ t.val % 18 = 0)
theorem condPos_iff : ∀ t : Fin cfg0.N, condPos (grid0.coords t) ↔ t.val % 18 < 2 :=
  (by decide +kernel : ∀ t : Fin grid0.N, condPos (grid0.coords t) ↔ t.val % 18 < 2)
theorem condOth_iff : ∀ t : Fin cfg0.N, condOth (grid0.coords t) ↔ 2 ≤ t.val % 18 :=
  (by decide +kernel : ∀ t : Fin grid0.N, condOth (grid0.coords t) ↔ 2 ≤ t.val % 18)
theorem condLast_iff : ∀ t : Fin cfg0.N, condLast (grid0.coords t) ↔ t.val % 18 = 17 :=
  (by decide +kernel : ∀ t : Fin grid0.N, condLast (grid0.coords t) ↔ t.val % 18 = 17)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last column tile the body stores nothing into the first output's buffer, -/
theorem idle2 : ∀ t : Fin cfg0.N, ¬condLast (grid0.coords t) → cfg0.idle 2 (grid0.coords t) = true := by decide +kernel
/-- and its block is not written back there. -/
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem live3 : ∀ t : Fin cfg0.N, condLast (grid0.coords t) → cfg0.idle 3 (grid0.coords t) = false := by decide +kernel

/-! ## The memrefs a point's body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The accumulator of the positive term, a whole scratch buffer of the kernel's own, -/
abbrev accP : Memref sig .tc .vmem S512x128 .f32 := Memref.whole cc0_scratch0
/-- and the accumulator of the other term. -/
abbrev accO : Memref sig .tc .vmem S512x128 .f32 := Memref.whole cc0_scratch1

/-- The region's invariant as the launch hands it over: the two accumulators owned at some contents, and the
    generator's register at some state. -/
theorem PhiA_eq (c : Dev nD) :
    (Pipeline.ΦA spec0 c : sProp 𝕄)
      = iprop(iprop((∃ d, owns (c : Thread nD τ) accP fullShare d) ∗ (∃ d, owns (c : Thread nD τ) accO fullShare d)) ∗ (∃ r, prngReg c r)) := by
  unfold Pipeline.ΦA; rw [scopedRest0_eq]; simp only [accP, accO, owns_whole]; try rfl

end Cert.Kernel.Body

end
-- ==== Proof.BodyBRunA.lean ====
/-
  The body at the first column tile of a row tile (j = 0). Both accumulators are zeroed, whatever they held; the tile is
  a positive one, so the first accumulator then grows by the tile's lane-chunk sums of exp (20 · s), s the product of the
  image block with the tile's rows; nothing is stored into the outputs' buffers.
-/
import proofs.«120487_j44160853738083_2_alg».proof.Proof.BodyBShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : condZero i) (hp : condPos i) (ho : ¬condOth i) (hl : ¬condLast i)
    (x0 : Vec F S512x1024 .bf16) (x1 : Vec F S2048x1024 .bf16)
    (E : Set ℕ) (K : PUnit → sProp 𝕄) :
    iprop(owns (c : Thread nD τ) a2 fullShare x0 ∗ owns (c : Thread nD τ) a3 fullShare x1
        ∗ (∃ d, owns (c : Thread nD τ) a6 fullShare d) ∗ (∃ d, owns (c : Thread nD τ) a7 fullShare d)
        ∗ (iprop(owns (c : Thread nD τ) a2 fullShare x0 ∗ owns (c : Thread nD τ) a3 fullShare x1
            ∗ owns (c : Thread nD τ) a6 fullShare (k0_pay4 x0 x1 k0_pay1) ∗ owns (c : Thread nD τ) a7 fullShare k0_pay2) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%d6, %f6, -, H6⟩, ⟨%d7, %f7, -, H7⟩, Hk⟩
  obtain rfl := h2.eq_unread hf0; obtain rfl := h3.eq_unread hf1
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  isplitl [H6]
  · iexists _; isplitr
    swap; · iexact H6
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])
  · iexists _; isplitr
    swap; · iexact H7
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.Kernel.Body

end
-- ==== Proof.BodyBRunB.lean ====
/-
  The body at the second column tile of a row tile (j = 1): a positive tile. The first accumulator, found at `s6`, grows
  by the tile's lane-chunk sums of exp (20 · s); the second accumulator and the outputs' buffers are not touched.
-/
import proofs.«120487_j44160853738083_2_alg».proof.Proof.BodyBShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : ¬condZero i) (hp : condPos i) (ho : ¬condOth i) (hl : ¬condLast i)
    (x0 : Vec F S512x1024 .bf16) (x1 : Vec F S2048x1024 .bf16) (s6 : Vec F S512x128 .f32)
    (E : Set ℕ) (K : PUnit → sProp 𝕄) :
    iprop(owns (c : Thread nD τ) a2 fullShare x0 ∗ owns (c : Thread nD τ) a3 fullShare x1 ∗ owns (c : Thread nD τ) a6 fullShare s6
        ∗ (iprop(owns (c : Thread nD τ) a2 fullShare x0 ∗ owns (c : Thread nD τ) a3 fullShare x1
            ∗ owns (c : Thread nD τ) a6 fullShare (k0_pay4 x0 x1 s6)) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%f6, %hf6, H6⟩, Hk⟩
  obtain rfl := h2.eq_unread hf0; obtain rfl := h3.eq_unread hf1; obtain rfl := h6.eq_unread hf6
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  · iexists _; isplitr
    swap; · iexact H6
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.Kernel.Body

end
-- ==== Proof.BodyBRunC.lean ====
/-
  The body at a column tile 2 ≤ j ≤ 16 of a row tile: an other tile. The second accumulator, found at `s7`, grows by the
  tile's lane-chunk sums of exp (r · s), r the scale of the other term; the first accumulator and the outputs' buffers are not touched.
-/
import proofs.«120487_j44160853738083_2_alg».proof.Proof.BodyBShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : ¬condZero i) (hp : ¬condPos i) (ho : condOth i) (hl : ¬condLast i)
    (x0 : Vec F S512x1024 .bf16) (x1 : Vec F S2048x1024 .bf16) (s7 : Vec F S512x128 .f32)
    (E : Set ℕ) (K : PUnit → sProp 𝕄) :
    iprop(owns (c : Thread nD τ) a2 fullShare x0 ∗ owns (c : Thread nD τ) a3 fullShare x1 ∗ owns (c : Thread nD τ) a7 fullShare s7
        ∗ (iprop(owns (c : Thread nD τ) a2 fullShare x0 ∗ owns (c : Thread nD τ) a3 fullShare x1
            ∗ owns (c : Thread nD τ) a7 fullShare (k0_pay5 x0 x1 s7)) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%f7, %hf7, H7⟩, Hk⟩
  obtain rfl := h2.eq_unread hf0; obtain rfl := h3.eq_unread hf1; obtain rfl := h7.eq_unread hf7
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  · iexists _; isplitr
    swap; · iexact H7
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.Kernel.Body

end
-- ==== Proof.BodyBRunD.lean ====
/-
  The body at the last column tile of a row tile (j = 17): an other tile, and the tile at which the outputs are stored.
  The second accumulator, found at `s7`, grows as at any other tile; then each accumulator is summed along its 128 lanes
  into the block of its output: the first output's block from the first accumulator as found (`s6`), the second's from the
  second accumulator as just stored.
-/
import proofs.«120487_j44160853738083_2_alg».proof.Proof.BodyBShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runD (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : ¬condZero i) (hp : ¬condPos i) (ho : condOth i) (hl : condLast i)
    (x0 : Vec F S512x1024 .bf16) (x1 : Vec F S2048x1024 .bf16) (s6 s7 : Vec F S512x128 .f32)
    (E : Set ℕ) (K : PUnit → sProp 𝕄) :
    iprop(owns (c : Thread nD τ) a2 fullShare x0 ∗ owns (c : Thread nD τ) a3 fullShare x1
        ∗ (∃ d, owns (c : Thread nD τ) a4 fullShare d) ∗ (∃ d, owns (c : Thread nD τ) a5 fullShare d) ∗ owns (c : Thread nD τ) a6 fullShare s6 ∗ owns (c : Thread nD τ) a7 fullShare s7
        ∗ (iprop(owns (c : Thread nD τ) a2 fullShare x0 ∗ owns (c : Thread nD τ) a3 fullShare x1
            ∗ owns (c : Thread nD τ) a4 fullShare (k0_pay6 s6) ∗ owns (c : Thread nD τ) a5 fullShare (k0_pay7 (k0_pay5 x0 x1 s7))
            ∗ owns (c : Thread nD τ) a6 fullShare s6 ∗ owns (c : Thread nD τ) a7 fullShare (k0_pay5 x0 x1 s7)) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%d4, %f4, -, H4⟩, ⟨%d5, %f5, -, H5⟩, ⟨%f6, %hf6, H6⟩, ⟨%f7, %hf7, H7⟩, Hk⟩
  obtain rfl := h2.eq_unread hf0; obtain rfl := h3.eq_unread hf1; obtain rfl := h6.eq_unread hf6; obtain rfl := h7.eq_unread hf7
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr
    swap; · iexact H4
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])
  isplitl [H5]
  · iexists _; isplitr
    swap; · iexact H5
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])
  isplitl [H6]
  · iexists _; isplitr; · ipureintro; exact h6.read_unread _
    iexact H6
  · iexists _; isplitr
    swap; · iexact H7
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.Kernel.Body

end
-- ==== Proof.BodyB.lean ====
/-
  The frame of the fused kernel: the region's proof data, the body's obligation at every point, and the run.

  What the two accumulators hold after each point is a recursion on the point (`accAt`): at the first column tile of a
  row tile (t % 18 = 0) both are reset and the first grows by that tile's term; at the second (t % 18 = 1) the first grows
  again; from the third on (2 ≤ t % 18) the second grows. The outputs' blocks are stored at the last column tile
  (t % 18 = 17) only, each the lane sum of its accumulator; elsewhere the output windows are idle and not written back.
  The invariant between points holds the two accumulators at `accAt` of the point before (at anything before the first
  point). The body's run at a point is the run of the case its column tile selects.
-/
import proofs.«120487_j44160853738083_2_alg».proof.Proof.BodyBRunA
import proofs.«120487_j44160853738083_2_alg».proof.Proof.BodyBRunB
import proofs.«120487_j44160853738083_2_alg».proof.Proof.BodyBRunC
import proofs.«120487_j44160853738083_2_alg».proof.Proof.BodyBRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators after each point -/

/-- The first and the second accumulator after the body at position `n`. -/
def accAt (c : Dev nD) : (n : ℕ) → n < cfg0.N → Vec F S512x128 .f32 × Vec F S512x128 .f32
  | 0, hn => (k0_pay4 (iblk m c 0 ⟨0, hn⟩) (iblk m c 1 ⟨0, hn⟩) k0_pay1, k0_pay2)
  | n + 1, hn =>
    if (n + 1) % 18 = 0 then
      (k0_pay4 (iblk m c 0 ⟨n + 1, hn⟩) (iblk m c 1 ⟨n + 1, hn⟩) k0_pay1, k0_pay2)
    else if (n + 1) % 18 < 2 then
      (k0_pay4 (iblk m c 0 ⟨n + 1, hn⟩) (iblk m c 1 ⟨n + 1, hn⟩) (accAt c n (Nat.lt_of_succ_lt hn)).1, (accAt c n (Nat.lt_of_succ_lt hn)).2)
    else
      ((accAt c n (Nat.lt_of_succ_lt hn)).1, k0_pay5 (iblk m c 0 ⟨n + 1, hn⟩) (iblk m c 1 ⟨n + 1, hn⟩) (accAt c n (Nat.lt_of_succ_lt hn)).2)

/-- At the first column tile of a row tile: both reset, the first grown once. -/
theorem accAt_zero (c : Dev nD) (t : Fin cfg0.N) (h : t.val % 18 = 0) :
    accAt m c t.val t.isLt = (k0_pay4 (iblk m c 0 t) (iblk m c 1 t) k0_pay1, k0_pay2) := by
  obtain ⟨n, hn⟩ := t
  cases n with
  | zero => rfl
  | succ n => exact (if_pos h).trans rfl

/-- At the second column tile: the first grows over what the point before left, the second is kept. -/
theorem accAt_pos (c : Dev nD) (t : Fin cfg0.N) (h0 : ¬t.val % 18 = 0) (h : t.val % 18 < 2) :
    accAt m c t.val t.isLt = (k0_pay4 (iblk m c 0 t) (iblk m c 1 t) (accAt m c (t.val - 1) (Nat.lt_of_le_of_lt (Nat.sub_le _ _) t.isLt)).1,
      (accAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_pos h).trans rfl)

/-- From the third column tile on: the first is kept, the second grows over what the point before left. -/
theorem accAt_oth (c : Dev nD) (t : Fin cfg0.N) (h0 : ¬t.val % 18 = 0) (h : ¬t.val % 18 < 2) :
    accAt m c t.val t.isLt = ((accAt m c (t.val - 1) (Nat.lt_of_le_of_lt (Nat.sub_le _ _) t.isLt)).1,
      k0_pay5 (iblk m c 0 t) (iblk m c 1 t) (accAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h).trans rfl)

/-! ## The invariant between points -/

/-- Before position `n`: at the start whatever the launch hands over; afterwards the two accumulators at what the point
    before left, and the generator's register at some state. -/
def PhiS (c : Dev nD) : (n : ℕ) → n ≤ cfg0.N → sProp 𝕄
  | 0, _ => Pipeline.ΦA spec0 c
  | n + 1, hn => iprop(iprop(owns (c : Thread nD τ) accP fullShare ((accAt m c n hn).1) ∗ owns (c : Thread nD τ) accO fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accP fullShare ((accAt m c n hn).1) ∗ owns (c : Thread nD τ) accO fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) accP fullShare ((accAt m c (n - 1) (by omega)).1) ∗ owns (c : Thread nD τ) accO fullShare ((accAt m c (n - 1) (by omega)).2)) ∗ (∃ r, prngReg c r)) := by
  cases n with
  | zero => exact absurd rfl hz
  | succ n => rfl

/-! ## The proof data -/

/-- The region's proof data on core `c`: the arrays as the region finds them; after the body each input's buffer at its
    block, each output's at the lane sum of its accumulator; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (accAt m c t.val t.isLt).1
    | ⟨3, _⟩ => k0_pay7 (accAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay6 (accAt m c t.val t.isLt).1 := by dsimp only [dats]
theorem after3 (c : Dev nD) (t : Fin cfg0.N) : (dats m 0 c).after 3 t = k0_pay7 (accAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]

set_option maxHeartbeats 4800000 in
/-- The body at any point: the inputs' buffers hold their blocks; the column tile says which case the point is in; the
    invariant hands over the accumulators at what the point before left (at anything at the very first point) and takes
    them back at this point's contents; an output window is handed back untouched where it is idle, and at the last
    column tile holds the lane sum of its accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 144 := lt_of_lt_of_eq t.isLt (show cfg0.N = 144 from N_0)
  by_cases hz : t.val % 18 = 0
  · -- the first column tile
    have cz := (condZero_iff t).mpr hz
    have cp := (condPos_iff t).mpr (by omega)
    have co : ¬condOth (grid0.coords t) := fun h => by have := (condOth_iff t).mp h; omega
    have cl : ¬condLast (grid0.coords t) := fun h => by have := (condLast_iff t).mp h; omega
    rw [Dat.leavesExact_idle (dats m 0 c) 2 t (idle2 t cl) (noFlush2 t cl), Dat.leavesExact_idle (dats m 0 c) 3 t (idle3 t cl) (noFlush3 t cl)]
    rw [accAt_zero m c t hz]
    dsimp only
    by_cases h0 : t.val = 0
    · rw [PhiS_castSucc m c t, PhiS_zero m c _ _ h0, PhiA_eq]
      iintro ⟨⟨⟨HS6, HS7⟩, Hg⟩, Ho, ⟨%d0, H0⟩, ⟨%d1, H1⟩, H2, H3⟩
      iapply (runA c (grid0.coords t) _ _ _ _ _ _ _ _ _ _ _ _ cz cp co cl (iblk m c 0 t) (iblk m c 1 t) Set.univ _)
      isplitl [H0]; · iexact H0
      isplitl [H1]; · iexact H1
      isplitl [HS6]; · iexact HS6
      isplitl [HS7]; · iexact HS7
      iintro ⟨H0, H1, HS6, HS7⟩
      isplitl [HS6 HS7 Hg]
      · isplitl [HS6 HS7]
        · isplitl [HS6]; · iexact HS6
          iexact HS7
        iexact Hg
      isplitl [Ho]; · iexact Ho
      isplitl [H0]; · iexact H0
      isplitl [H1]; · iexact H1
      isplitl [H2]; · iexact H2
      iexact H3
    · rw [PhiS_castSucc m c t, PhiS_pos m c _ _ h0]
      iintro ⟨⟨⟨HS6, HS7⟩, Hg⟩, Ho, ⟨%d0, H0⟩, ⟨%d1, H1⟩, H2, H3⟩
      iapply (runA c (grid0.coords t) _ _ _ _ _ _ _ _ _ _ _ _ cz cp co cl (iblk m c 0 t) (iblk m c 1 t) Set.univ _)
      isplitl [H0]; · iexact H0
      isplitl [H1]; · iexact H1
      isplitl [HS6]; · iexists _; iexact HS6
      isplitl [HS7]; · iexists _; iexact HS7
      iintro ⟨H0, H1, HS6, HS7⟩
      isplitl [HS6 HS7 Hg]
      · isplitl [HS6 HS7]
        · isplitl [HS6]; · iexact HS6
          iexact HS7
        iexact Hg
      isplitl [Ho]; · iexact Ho
      isplitl [H0]; · iexact H0
      isplitl [H1]; · iexact H1
      isplitl [H2]; · iexact H2
      iexact H3
  · have h0 : t.val ≠ 0 := fun h => hz (by rw [h])
    have cz : ¬condZero (grid0.coords t) := fun h => hz ((condZero_iff t).mp h)
    by_cases hp : t.val % 18 < 2
    · -- the second column tile
      have cp := (condPos_iff t).mpr hp
      have co : ¬condOth (grid0.coords t) := fun h => by have := (condOth_iff t).mp h; omega
      have cl : ¬condLast (grid0.coords t) := fun h => by have := (condLast_iff t).mp h; omega
      rw [Dat.leavesExact_idle (dats m 0 c) 2 t (idle2 t cl) (noFlush2 t cl), Dat.leavesExact_idle (dats m 0 c) 3 t (idle3 t cl) (noFlush3 t cl)]
      rw [accAt_pos m c t hz hp]
      dsimp only
      rw [PhiS_castSucc m c t, PhiS_pos m c _ _ h0]
      iintro ⟨⟨⟨HS6, HS7⟩, Hg⟩, Ho, ⟨%d0, H0⟩, ⟨%d1, H1⟩, H2, H3⟩
      iapply (runB c (grid0.coords t) _ _ _ _ _ _ _ _ _ _ _ _ cz cp co cl (iblk m c 0 t) (iblk m c 1 t) _ Set.univ _)
      isplitl [H0]; · iexact H0
      isplitl [H1]; · iexact H1
      isplitl [HS6]; · iexact HS6
      iintro ⟨H0, H1, HS6⟩
      isplitl [HS6 HS7 Hg]
      · isplitl [HS6 HS7]
        · isplitl [HS6]; · iexact HS6
          iexact HS7
        iexact Hg
      isplitl [Ho]; · iexact Ho
      isplitl [H0]; · iexact H0
      isplitl [H1]; · iexact H1
      isplitl [H2]; · iexact H2
      iexact H3
    · have cp : ¬condPos (grid0.coords t) := fun h => hp ((condPos_iff t).mp h)
      have co := (condOth_iff t).mpr (by omega)
      rw [accAt_oth m c t hz hp]
      dsimp only
      rw [PhiS_castSucc m c t, PhiS_pos m c _ _ h0]
      by_cases hl : t.val % 18 = 17
      · -- the last column tile
        have cl := (condLast_iff t).mpr hl
        rw [show (dats m 0 c).leavesExact 2 t = owns (c : Thread nD τ) (ms2 t) fullShare ((dats m 0 c).after 2 t) from by
          unfold Dat.leavesExact; rw [live2 t cl], after2]
        rw [show (dats m 0 c).leavesExact 3 t = owns (c : Thread nD τ) (ms3 t) fullShare ((dats m 0 c).after 3 t) from by
          unfold Dat.leavesExact; rw [live3 t cl], after3]
        rw [accAt_oth m c t hz hp]
        dsimp only
        iintro ⟨⟨⟨HS6, HS7⟩, Hg⟩, Ho, ⟨%d0, H0⟩, ⟨%d1, H1⟩, ⟨%d2, H2⟩, ⟨%d3, H3⟩⟩
        iapply (runD c (grid0.coords t) _ _ _ _ _ _ _ _ _ _ _ _ cz cp co cl (iblk m c 0 t) (iblk m c 1 t) _ _ Set.univ _)
        isplitl [H0]; · iexact H0
        isplitl [H1]; · iexact H1
        isplitl [H2]; · iexists _; iexact H2
        isplitl [H3]; · iexists _; iexact H3
        isplitl [HS6]; · iexact HS6
        isplitl [HS7]; · iexact HS7
        iintro ⟨H0, H1, H2, H3, HS6, HS7⟩
        isplitl [HS6 HS7 Hg]
        · isplitl [HS6 HS7]
          · isplitl [HS6]; · iexact HS6
            iexact HS7
          iexact Hg
        isplitl [Ho]; · iexact Ho
        isplitl [H0]; · iexact H0
        isplitl [H1]; · iexact H1
        isplitl [H2]; · iexact H2
        iexact H3
      · -- a middle column tile
        have cl : ¬condLast (grid0.coords t) := fun h => hl ((condLast_iff t).mp h)
        rw [Dat.leavesExact_idle (dats m 0 c) 2 t (idle2 t cl) (noFlush2 t cl), Dat.leavesExact_idle (dats m 0 c) 3 t (idle3 t cl) (noFlush3 t cl)]
        iintro ⟨⟨⟨HS6, HS7⟩, Hg⟩, Ho, ⟨%d0, H0⟩, ⟨%d1, H1⟩, H2, H3⟩
        iapply (runC c (grid0.coords t) _ _ _ _ _ _ _ _ _ _ _ _ cz cp co cl (iblk m c 0 t) (iblk m c 1 t) _ Set.univ _)
        isplitl [H0]; · iexact H0
        isplitl [H1]; · iexact H1
        isplitl [HS7]; · iexact HS7
        iintro ⟨H0, H1, HS7⟩
        isplitl [HS6 HS7 Hg]
        · isplitl [HS6 HS7]
          · isplitl [HS6]; · iexact HS6
            iexact HS7
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 144 := N_0; omega), PhiA_eq]
  iintro ⟨⟨HS6, HS7⟩, Hg⟩
  isplitl [HS6 HS7]
  · isplitl [HS6]; · iexists _; iexact HS6
    iexists _; iexact HS7
  iexact Hg

/-! ## The run and the frame -/

set_option backward.isDefEq.respectTransparency.types false in
/-- Every weakly fair execution of @main terminates, with every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main terminates, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyIShared.lean ====
/-
  What the four runs of the fused kernel's body share. The grid is 8 row tiles by 18 column tiles, a point `t` being
  row tile `t / 18` and column tile `t % 18`. The body branches four times on the column tile `j`: `j = 0` (both
  accumulators are zeroed), `j < 2` (a positive tile: the first accumulator grows), `j ≥ 2` (an other tile: the second
  accumulator grows), `j = 17` (both accumulators are summed along the lanes into the two outputs' blocks). Here: the
  four conditions as the body computes them with their closed forms over the 144 points, where the two output windows are
  idle, the staging and scratch memrefs a point's body is called with, and the region's invariant with the two
  accumulators named.
-/
import proofs.«120487_j44160853738083_2_alg».proof.Proof.Gen.KernelIdeal.Frame
import proofs.«120487_j44160853738083_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A whole-block store made last -/

/-- The offsets of every load and store of the body are zero on both axes. -/
theorem off00 : (![0, 0] : Fin 2 → Nat) = fun _ => 0 := by funext a; fin_cases a <;> rfl

/-- A buffer whose LAST store covers its whole block reads that store's payload, whatever was stored before and whatever
    it held: the earlier pieces are overwritten. -/
theorem read_last_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-! ## The four conditions -/

/-- `j = 0`, as the body's scalar chain computes it. -/
abbrev condZero (i : grid0.Coords) : Prop :=
  (Scalar.cmpi .ne (Scalar.extui (Scalar.cmpi .eq (BitVec.ofNat 32 (i 1).val) 0#32)) 0#32) = 1#1
/-- `j < 2`. -/
abbrev condPos (i : grid0.Coords) : Prop :=
  (Scalar.cmpi .ne (Scalar.extui (Scalar.cmpi .slt (BitVec.ofNat 32 (i 1).val) 2#32)) 0#32) = 1#1
/-- `j ≥ 2`. -/
abbrev condOth (i : grid0.Coords) : Prop :=
  (Scalar.cmpi .ne (Scalar.extui (Scalar.cmpi .sge (BitVec.ofNat 32 (i 1).val) 2#32)) 0#32) = 1#1
/-- `j = 17`. -/
abbrev condLast (i : grid0.Coords) : Prop := k0_cond4 i = 1#1

theorem condZero_iff : ∀ t : Fin cfg0.N, condZero (grid0.coords t) ↔ t.val % 18 = 0 :=
  (by decide +kernel : ∀ t : Fin grid0.N, condZero (grid0.coords t) ↔ t.val % 18 = 0)
theorem condPos_iff : ∀ t : Fin cfg0.N, condPos (grid0.coords t) ↔ t.val % 18 < 2 :=
  (by decide +kernel : ∀ t : Fin grid0.N, condPos (grid0.coords t) ↔ t.val % 18 < 2)
theorem condOth_iff : ∀ t : Fin cfg0.N, condOth (grid0.coords t) ↔ 2 ≤ t.val % 18 :=
  (by decide +kernel : ∀ t : Fin grid0.N, condOth (grid0.coords t) ↔ 2 ≤ t.val % 18)
theorem condLast_iff : ∀ t : Fin cfg0.N, condLast (grid0.coords t) ↔ t.val % 18 = 17 :=
  (by decide +kernel : ∀ t : Fin grid0.N, condLast (grid0.coords t) ↔ t.val % 18 = 17)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last column tile the body stores nothing into the first output's buffer, -/
theorem idle2 : ∀ t : Fin cfg0.N, ¬condLast (grid0.coords t) → cfg0.idle 2 (grid0.coords t) = true := by decide +kernel
/-- and its block is not written back there. -/
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem live3 : ∀ t : Fin cfg0.N, condLast (grid0.coords t) → cfg0.idle 3 (grid0.coords t) = false := by decide +kernel

/-! ## The memrefs a point's body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The accumulator of the positive term, a whole scratch buffer of the kernel's own, -/
abbrev accP : Memref sig .tc .vmem S512x128 .f32 := Memref.whole cc0_scratch0
/-- and the accumulator of the other term. -/
abbrev accO : Memref sig .tc .vmem S512x128 .f32 := Memref.whole cc0_scratch1

/-- The region's invariant as the launch hands it over: the two accumulators owned at some contents, and the
    generator's register at some state. -/
theorem PhiA_eq (c : Dev nD) :
    (Pipeline.ΦA spec0 c : sProp 𝕄)
      = iprop(iprop((∃ d, owns (c : Thread nD τ) accP fullShare d) ∗ (∃ d, owns (c : Thread nD τ) accO fullShare d)) ∗ (∃ r, prngReg c r)) := by
  unfold Pipeline.ΦA; rw [scopedRest0_eq]; simp only [accP, accO, owns_whole]; try rfl

end Cert.KernelIdeal.Body

end
-- ==== Proof.BodyIRunA.lean ====
/-
  The body at the first column tile of a row tile (j = 0). Both accumulators are zeroed, whatever they held; the tile is
  a positive one, so the first accumulator then grows by the tile's lane-chunk sums of exp (20 · s), s the product of the
  image block with the tile's rows; nothing is stored into the outputs' buffers.
-/
import proofs.«120487_j44160853738083_2_alg».proof.Proof.BodyIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem runA (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : condZero i) (hp : condPos i) (ho : ¬condOth i) (hl : ¬condLast i)
    (x0 : Vec F S512x1024 .bf16) (x1 : Vec F S2048x1024 .bf16)
    (E : Set ℕ) (K : PUnit → sProp 𝕄) :
    iprop(owns (c : Thread nD τ) a2 fullShare x0 ∗ owns (c : Thread nD τ) a3 fullShare x1
        ∗ (∃ d, owns (c : Thread nD τ) a6 fullShare d) ∗ (∃ d, owns (c : Thread nD τ) a7 fullShare d)
        ∗ (iprop(owns (c : Thread nD τ) a2 fullShare x0 ∗ owns (c : Thread nD τ) a3 fullShare x1
            ∗ owns (c : Thread nD τ) a6 fullShare (k0_pay4 x0 x1 k0_pay1) ∗ owns (c : Thread nD τ) a7 fullShare k0_pay2) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%d6, %f6, -, H6⟩, ⟨%d7, %f7, -, H7⟩, Hk⟩
  obtain rfl := h2.eq_unread hf0; obtain rfl := h3.eq_unread hf1
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  isplitl [H6]
  · iexists _; isplitr
    swap; · iexact H6
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])
  · iexists _; isplitr
    swap; · iexact H7
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.KernelIdeal.Body

end
-- ==== Proof.BodyIRunB.lean ====
/-
  The body at the second column tile of a row tile (j = 1): a positive tile. The first accumulator, found at `s6`, grows
  by the tile's lane-chunk sums of exp (20 · s); the second accumulator and the outputs' buffers are not touched.
-/
import proofs.«120487_j44160853738083_2_alg».proof.Proof.BodyIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem runB (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : ¬condZero i) (hp : condPos i) (ho : ¬condOth i) (hl : ¬condLast i)
    (x0 : Vec F S512x1024 .bf16) (x1 : Vec F S2048x1024 .bf16) (s6 : Vec F S512x128 .f32)
    (E : Set ℕ) (K : PUnit → sProp 𝕄) :
    iprop(owns (c : Thread nD τ) a2 fullShare x0 ∗ owns (c : Thread nD τ) a3 fullShare x1 ∗ owns (c : Thread nD τ) a6 fullShare s6
        ∗ (iprop(owns (c : Thread nD τ) a2 fullShare x0 ∗ owns (c : Thread nD τ) a3 fullShare x1
            ∗ owns (c : Thread nD τ) a6 fullShare (k0_pay4 x0 x1 s6)) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%f6, %hf6, H6⟩, Hk⟩
  obtain rfl := h2.eq_unread hf0; obtain rfl := h3.eq_unread hf1; obtain rfl := h6.eq_unread hf6
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  · iexists _; isplitr
    swap; · iexact H6
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.KernelIdeal.Body

end
-- ==== Proof.BodyIRunC.lean ====
/-
  The body at a column tile 2 ≤ j ≤ 16 of a row tile: an other tile. The second accumulator, found at `s7`, grows by the
  tile's lane-chunk sums of exp (r · s), r the scale of the other term; the first accumulator and the outputs' buffers are not touched.
-/
import proofs.«120487_j44160853738083_2_alg».proof.Proof.BodyIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem runC (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : ¬condZero i) (hp : ¬condPos i) (ho : condOth i) (hl : ¬condLast i)
    (x0 : Vec F S512x1024 .bf16) (x1 : Vec F S2048x1024 .bf16) (s7 : Vec F S512x128 .f32)
    (E : Set ℕ) (K : PUnit → sProp 𝕄) :
    iprop(owns (c : Thread nD τ) a2 fullShare x0 ∗ owns (c : Thread nD τ) a3 fullShare x1 ∗ owns (c : Thread nD τ) a7 fullShare s7
        ∗ (iprop(owns (c : Thread nD τ) a2 fullShare x0 ∗ owns (c : Thread nD τ) a3 fullShare x1
            ∗ owns (c : Thread nD τ) a7 fullShare (k0_pay5 x0 x1 s7)) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%f7, %hf7, H7⟩, Hk⟩
  obtain rfl := h2.eq_unread hf0; obtain rfl := h3.eq_unread hf1; obtain rfl := h7.eq_unread hf7
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  · iexists _; isplitr
    swap; · iexact H7
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.KernelIdeal.Body

end
-- ==== Proof.BodyIRunD.lean ====
/-
  The body at the last column tile of a row tile (j = 17): an other tile, and the tile at which the outputs are stored.
  The second accumulator, found at `s7`, grows as at any other tile; then each accumulator is summed along its 128 lanes
  into the block of its output: the first output's block from the first accumulator as found (`s6`), the second's from the
  second accumulator as just stored.
-/
import proofs.«120487_j44160853738083_2_alg».proof.Proof.BodyIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem runD (c : Dev nD) (i : grid0.Coords)
    (a2 : Memref sig .tc .vmem S512x1024 .bf16) (h2 : a2.IsWhole) (a3 : Memref sig .tc .vmem S2048x1024 .bf16) (h3 : a3.IsWhole)
    (a4 : Memref sig .tc .vmem S512x1 .f32) (h4 : a4.IsWhole) (a5 : Memref sig .tc .vmem S512x1 .f32) (h5 : a5.IsWhole)
    (a6 : Memref sig .tc .vmem S512x128 .f32) (h6 : a6.IsWhole) (a7 : Memref sig .tc .vmem S512x128 .f32) (h7 : a7.IsWhole)
    (hz : ¬condZero i) (hp : ¬condPos i) (ho : condOth i) (hl : condLast i)
    (x0 : Vec F S512x1024 .bf16) (x1 : Vec F S2048x1024 .bf16) (s6 s7 : Vec F S512x128 .f32)
    (E : Set ℕ) (K : PUnit → sProp 𝕄) :
    iprop(owns (c : Thread nD τ) a2 fullShare x0 ∗ owns (c : Thread nD τ) a3 fullShare x1
        ∗ (∃ d, owns (c : Thread nD τ) a4 fullShare d) ∗ (∃ d, owns (c : Thread nD τ) a5 fullShare d) ∗ owns (c : Thread nD τ) a6 fullShare s6 ∗ owns (c : Thread nD τ) a7 fullShare s7
        ∗ (iprop(owns (c : Thread nD τ) a2 fullShare x0 ∗ owns (c : Thread nD τ) a3 fullShare x1
            ∗ owns (c : Thread nD τ) a4 fullShare (k0_pay6 s6) ∗ owns (c : Thread nD τ) a5 fullShare (k0_pay7 (k0_pay5 x0 x1 s7))
            ∗ owns (c : Thread nD τ) a6 fullShare s6 ∗ owns (c : Thread nD τ) a7 fullShare (k0_pay5 x0 x1 s7)) -∗ K ⟨⟩))
      ⊢ wp frame (wpE (defs₀ (F := F)) Variants.none c none) E (cc0__fused_kernel i a2 h2 a3 h3 a4 h4 a5 h5 a6 h6 a7 h7) K := by
  simp only [cc0__fused_kernel_eq_skeleton]; unfold cc0__fused_kernel_skel
  unfold owns
  iintro ⟨⟨%f0, %hf0, H0⟩, ⟨%f1, %hf1, H1⟩, ⟨%d4, %f4, -, H4⟩, ⟨%d5, %f5, -, H5⟩, ⟨%f6, %hf6, H6⟩, ⟨%f7, %hf7, H7⟩, Hk⟩
  obtain rfl := h2.eq_unread hf0; obtain rfl := h3.eq_unread hf1; obtain rfl := h6.eq_unread hf6; obtain rfl := h7.eq_unread hf7
  sl_exec (disch := first | exact hz | exact hp | exact ho | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr
    swap; · iexact H4
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])
  isplitl [H5]
  · iexists _; isplitr
    swap; · iexact H5
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])
  isplitl [H6]
  · iexists _; isplitr; · ipureintro; exact h6.read_unread _
    iexact H6
  · iexists _; isplitr
    swap; · iexact H7
    ipureintro
    try sl_unfold_words
    rw [read_last_whole _ _ off00]
    all_goals (try simp only [View.readAt_eq_ld, h2.read_unread, h3.read_unread, h6.read_unread, h7.read_unread, View.ld_unit_zero (S := S512x1024) off00, View.ld_unit_zero (S := S2048x1024) off00, View.ld_unit_zero (S := S512x128) off00, View.readCov_unit_zero (S := S512x128) _ off00, View.canon_unit_zero (S := S512x128) off00])

end Cert.KernelIdeal.Body

end
-- ==== Proof.BodyI.lean ====
/-
  The frame of the fused kernel: the region's proof data, the body's obligation at every point, and the run.

  What the two accumulators hold after each point is a recursion on the point (`accAt`): at the first column tile of a
  row tile (t % 18 = 0) both are reset and the first grows by that tile's term; at the second (t % 18 = 1) the first grows
  again; from the third on (2 ≤ t % 18) the second grows. The outputs' blocks are stored at the last column tile
  (t % 18 = 17) only, each the lane sum of its accumulator; elsewhere the output windows are idle and not written back.
  The invariant between points holds the two accumulators at `accAt` of the point before (at anything before the first
  point). The body's run at a point is the run of the case its column tile selects.
-/
import proofs.«120487_j44160853738083_2_alg».proof.Proof.BodyIRunA
import proofs.«120487_j44160853738083_2_alg».proof.Proof.BodyIRunB
import proofs.«120487_j44160853738083_2_alg».proof.Proof.BodyIRunC
import proofs.«120487_j44160853738083_2_alg».proof.Proof.BodyIRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The accumulators after each point -/

/-- The first and the second accumulator after the body at position `n`. -/
def accAt (c : Dev nD) : (n : ℕ) → n < cfg0.N → Vec F S512x128 .f32 × Vec F S512x128 .f32
  | 0, hn => (k0_pay4 (iblk m c 0 ⟨0, hn⟩) (iblk m c 1 ⟨0, hn⟩) k0_pay1, k0_pay2)
  | n + 1, hn =>
    if (n + 1) % 18 = 0 then
      (k0_pay4 (iblk m c 0 ⟨n + 1, hn⟩) (iblk m c 1 ⟨n + 1, hn⟩) k0_pay1, k0_pay2)
    else if (n + 1) % 18 < 2 then
      (k0_pay4 (iblk m c 0 ⟨n + 1, hn⟩) (iblk m c 1 ⟨n + 1, hn⟩) (accAt c n (Nat.lt_of_succ_lt hn)).1, (accAt c n (Nat.lt_of_succ_lt hn)).2)
    else
      ((accAt c n (Nat.lt_of_succ_lt hn)).1, k0_pay5 (iblk m c 0 ⟨n + 1, hn⟩) (iblk m c 1 ⟨n + 1, hn⟩) (accAt c n (Nat.lt_of_succ_lt hn)).2)

/-- At the first column tile of a row tile: both reset, the first grown once. -/
theorem accAt_zero (c : Dev nD) (t : Fin cfg0.N) (h : t.val % 18 = 0) :
    accAt m c t.val t.isLt = (k0_pay4 (iblk m c 0 t) (iblk m c 1 t) k0_pay1, k0_pay2) := by
  obtain ⟨n, hn⟩ := t
  cases n with
  | zero => rfl
  | succ n => exact (if_pos h).trans rfl

/-- At the second column tile: the first grows over what the point before left, the second is kept. -/
theorem accAt_pos (c : Dev nD) (t : Fin cfg0.N) (h0 : ¬t.val % 18 = 0) (h : t.val % 18 < 2) :
    accAt m c t.val t.isLt = (k0_pay4 (iblk m c 0 t) (iblk m c 1 t) (accAt m c (t.val - 1) (Nat.lt_of_le_of_lt (Nat.sub_le _ _) t.isLt)).1,
      (accAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_pos h).trans rfl)

/-- From the third column tile on: the first is kept, the second grows over what the point before left. -/
theorem accAt_oth (c : Dev nD) (t : Fin cfg0.N) (h0 : ¬t.val % 18 = 0) (h : ¬t.val % 18 < 2) :
    accAt m c t.val t.isLt = ((accAt m c (t.val - 1) (Nat.lt_of_le_of_lt (Nat.sub_le _ _) t.isLt)).1,
      k0_pay5 (iblk m c 0 t) (iblk m c 1 t) (accAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h).trans rfl)

/-! ## The invariant between points -/

/-- Before position `n`: at the start whatever the launch hands over; afterwards the two accumulators at what the point
    before left, and the generator's register at some state. -/
def PhiS (c : Dev nD) : (n : ℕ) → n ≤ cfg0.N → sProp 𝕄
  | 0, _ => Pipeline.ΦA spec0 c
  | n + 1, hn => iprop(iprop(owns (c : Thread nD τ) accP fullShare ((accAt m c n hn).1) ∗ owns (c : Thread nD τ) accO fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accP fullShare ((accAt m c n hn).1) ∗ owns (c : Thread nD τ) accO fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) accP fullShare ((accAt m c (n - 1) (by omega)).1) ∗ owns (c : Thread nD τ) accO fullShare ((accAt m c (n - 1) (by omega)).2)) ∗ (∃ r, prngReg c r)) := by
  cases n with
  | zero => exact absurd rfl hz
  | succ n => rfl

/-! ## The proof data -/

/-- The region's proof data on core `c`: the arrays as the region finds them; after the body each input's buffer at its
    block, each output's at the lane sum of its accumulator; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (accAt m c t.val t.isLt).1
    | ⟨3, _⟩ => k0_pay7 (accAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay6 (accAt m c t.val t.isLt).1 := by dsimp only [dats]
theorem after3 (c : Dev nD) (t : Fin cfg0.N) : (dats m 0 c).after 3 t = k0_pay7 (accAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]

set_option maxHeartbeats 4800000 in
/-- The body at any point: the inputs' buffers hold their blocks; the column tile says which case the point is in; the
    invariant hands over the accumulators at what the point before left (at anything at the very first point) and takes
    them back at this point's contents; an output window is handed back untouched where it is idle, and at the last
    column tile holds the lane sum of its accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 144 := lt_of_lt_of_eq t.isLt (show cfg0.N = 144 from N_0)
  by_cases hz : t.val % 18 = 0
  · -- the first column tile
    have cz := (condZero_iff t).mpr hz
    have cp := (condPos_iff t).mpr (by omega)
    have co : ¬condOth (grid0.coords t) := fun h => by have := (condOth_iff t).mp h; omega
    have cl : ¬condLast (grid0.coords t) := fun h => by have := (condLast_iff t).mp h; omega
    rw [Dat.leavesExact_idle (dats m 0 c) 2 t (idle2 t cl) (noFlush2 t cl), Dat.leavesExact_idle (dats m 0 c) 3 t (idle3 t cl) (noFlush3 t cl)]
    rw [accAt_zero m c t hz]
    dsimp only
    by_cases h0 : t.val = 0
    · rw [PhiS_castSucc m c t, PhiS_zero m c _ _ h0, PhiA_eq]
      iintro ⟨⟨⟨HS6, HS7⟩, Hg⟩, Ho, ⟨%d0, H0⟩, ⟨%d1, H1⟩, H2, H3⟩
      iapply (runA c (grid0.coords t) _ _ _ _ _ _ _ _ _ _ _ _ cz cp co cl (iblk m c 0 t) (iblk m c 1 t) Set.univ _)
      isplitl [H0]; · iexact H0
      isplitl [H1]; · iexact H1
      isplitl [HS6]; · iexact HS6
      isplitl [HS7]; · iexact HS7
      iintro ⟨H0, H1, HS6, HS7⟩
      isplitl [HS6 HS7 Hg]
      · isplitl [HS6 HS7]
        · isplitl [HS6]; · iexact HS6
          iexact HS7
        iexact Hg
      isplitl [Ho]; · iexact Ho
      isplitl [H0]; · iexact H0
      isplitl [H1]; · iexact H1
      isplitl [H2]; · iexact H2
      iexact H3
    · rw [PhiS_castSucc m c t, PhiS_pos m c _ _ h0]
      iintro ⟨⟨⟨HS6, HS7⟩, Hg⟩, Ho, ⟨%d0, H0⟩, ⟨%d1, H1⟩, H2, H3⟩
      iapply (runA c (grid0.coords t) _ _ _ _ _ _ _ _ _ _ _ _ cz cp co cl (iblk m c 0 t) (iblk m c 1 t) Set.univ _)
      isplitl [H0]; · iexact H0
      isplitl [H1]; · iexact H1
      isplitl [HS6]; · iexists _; iexact HS6
      isplitl [HS7]; · iexists _; iexact HS7
      iintro ⟨H0, H1, HS6, HS7⟩
      isplitl [HS6 HS7 Hg]
      · isplitl [HS6 HS7]
        · isplitl [HS6]; · iexact HS6
          iexact HS7
        iexact Hg
      isplitl [Ho]; · iexact Ho
      isplitl [H0]; · iexact H0
      isplitl [H1]; · iexact H1
      isplitl [H2]; · iexact H2
      iexact H3
  · have h0 : t.val ≠ 0 := fun h => hz (by rw [h])
    have cz : ¬condZero (grid0.coords t) := fun h => hz ((condZero_iff t).mp h)
    by_cases hp : t.val % 18 < 2
    · -- the second column tile
      have cp := (condPos_iff t).mpr hp
      have co : ¬condOth (grid0.coords t) := fun h => by have := (condOth_iff t).mp h; omega
      have cl : ¬condLast (grid0.coords t) := fun h => by have := (condLast_iff t).mp h; omega
      rw [Dat.leavesExact_idle (dats m 0 c) 2 t (idle2 t cl) (noFlush2 t cl), Dat.leavesExact_idle (dats m 0 c) 3 t (idle3 t cl) (noFlush3 t cl)]
      rw [accAt_pos m c t hz hp]
      dsimp only
      rw [PhiS_castSucc m c t, PhiS_pos m c _ _ h0]
      iintro ⟨⟨⟨HS6, HS7⟩, Hg⟩, Ho, ⟨%d0, H0⟩, ⟨%d1, H1⟩, H2, H3⟩
      iapply (runB c (grid0.coords t) _ _ _ _ _ _ _ _ _ _ _ _ cz cp co cl (iblk m c 0 t) (iblk m c 1 t) _ Set.univ _)
      isplitl [H0]; · iexact H0
      isplitl [H1]; · iexact H1
      isplitl [HS6]; · iexact HS6
      iintro ⟨H0, H1, HS6⟩
      isplitl [HS6 HS7 Hg]
      · isplitl [HS6 HS7]
        · isplitl [HS6]; · iexact HS6
          iexact HS7
        iexact Hg
      isplitl [Ho]; · iexact Ho
      isplitl [H0]; · iexact H0
      isplitl [H1]; · iexact H1
      isplitl [H2]; · iexact H2
      iexact H3
    · have cp : ¬condPos (grid0.coords t) := fun h => hp ((condPos_iff t).mp h)
      have co := (condOth_iff t).mpr (by omega)
      rw [accAt_oth m c t hz hp]
      dsimp only
      rw [PhiS_castSucc m c t, PhiS_pos m c _ _ h0]
      by_cases hl : t.val % 18 = 17
      · -- the last column tile
        have cl := (condLast_iff t).mpr hl
        rw [show (dats m 0 c).leavesExact 2 t = owns (c : Thread nD τ) (ms2 t) fullShare ((dats m 0 c).after 2 t) from by
          unfold Dat.leavesExact; rw [live2 t cl], after2]
        rw [show (dats m 0 c).leavesExact 3 t = owns (c : Thread nD τ) (ms3 t) fullShare ((dats m 0 c).after 3 t) from by
          unfold Dat.leavesExact; rw [live3 t cl], after3]
        rw [accAt_oth m c t hz hp]
        dsimp only
        iintro ⟨⟨⟨HS6, HS7⟩, Hg⟩, Ho, ⟨%d0, H0⟩, ⟨%d1, H1⟩, ⟨%d2, H2⟩, ⟨%d3, H3⟩⟩
        iapply (runD c (grid0.coords t) _ _ _ _ _ _ _ _ _ _ _ _ cz cp co cl (iblk m c 0 t) (iblk m c 1 t) _ _ Set.univ _)
        isplitl [H0]; · iexact H0
        isplitl [H1]; · iexact H1
        isplitl [H2]; · iexists _; iexact H2
        isplitl [H3]; · iexists _; iexact H3
        isplitl [HS6]; · iexact HS6
        isplitl [HS7]; · iexact HS7
        iintro ⟨H0, H1, H2, H3, HS6, HS7⟩
        isplitl [HS6 HS7 Hg]
        · isplitl [HS6 HS7]
          · isplitl [HS6]; · iexact HS6
            iexact HS7
          iexact Hg
        isplitl [Ho]; · iexact Ho
        isplitl [H0]; · iexact H0
        isplitl [H1]; · iexact H1
        isplitl [H2]; · iexact H2
        iexact H3
      · -- a middle column tile
        have cl : ¬condLast (grid0.coords t) := fun h => hl ((condLast_iff t).mp h)
        rw [Dat.leavesExact_idle (dats m 0 c) 2 t (idle2 t cl) (noFlush2 t cl), Dat.leavesExact_idle (dats m 0 c) 3 t (idle3 t cl) (noFlush3 t cl)]
        iintro ⟨⟨⟨HS6, HS7⟩, Hg⟩, Ho, ⟨%d0, H0⟩, ⟨%d1, H1⟩, H2, H3⟩
        iapply (runC c (grid0.coords t) _ _ _ _ _ _ _ _ _ _ _ _ cz cp co cl (iblk m c 0 t) (iblk m c 1 t) _ Set.univ _)
        isplitl [H0]; · iexact H0
        isplitl [H1]; · iexact H1
        isplitl [HS7]; · iexact HS7
        iintro ⟨H0, H1, HS7⟩
        isplitl [HS6 HS7 Hg]
        · isplitl [HS6 HS7]
          · isplitl [HS6]; · iexact HS6
            iexact HS7
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 144 := N_0; omega), PhiA_eq]
  iintro ⟨⟨HS6, HS7⟩, Hg⟩
  isplitl [HS6 HS7]
  · isplitl [HS6]; · iexists _; iexact HS6
    iexists _; iexact HS7
  iexact Hg

/-! ## The run and the frame -/

set_option backward.isDefEq.respectTransparency.types false in
/-- Every weakly fair execution of @main terminates, with every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main terminates, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KVBlocks.lean ====
/-
  The windows' blocks as pieces of their arrays. At point `t` (row tile `t / 18`, column tile `t % 18`) the image window's
  block is rows `512 · (t / 18) …` of the image array, the column window's block is rows `2048 · (t % 18) …` of the
  concatenated array, and each output window's block is rows `512 · (t / 18) …` of its array: a block's coordinate is
  always index × size + the coordinate inside the block.
-/
import proofs.«120487_j44160853738083_2_alg».proof.Proof.Gen.KernelIdeal.Frame
import Idealize.ShloMosaic.Lib.ValueIdx
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-- The image window's block index at a point: the row tile, and 0 along the features. -/
theorem index0 : ∀ t : Fin cfg0.N, win0_0.index t (0 : Fin 2) = t.val / 18 ∧ win0_0.index t (1 : Fin 2) = 0 :=
  (by decide +kernel : ∀ t : Fin grid0.N, win0_0.index t (0 : Fin 2) = t.val / 18 ∧ win0_0.index t (1 : Fin 2) = 0)
/-- The column window's block index at a point: the column tile, and 0 along the features. -/
theorem index1 : ∀ t : Fin cfg0.N, win0_1.index t (0 : Fin 2) = t.val % 18 ∧ win0_1.index t (1 : Fin 2) = 0 :=
  (by decide +kernel : ∀ t : Fin grid0.N, win0_1.index t (0 : Fin 2) = t.val % 18 ∧ win0_1.index t (1 : Fin 2) = 0)
/-- Each output window's block index at a point: the row tile, and 0 along its one column. -/
theorem index2 : ∀ t : Fin cfg0.N, win0_2.index t (0 : Fin 2) = t.val / 18 ∧ win0_2.index t (1 : Fin 2) = 0 :=
  (by decide +kernel : ∀ t : Fin grid0.N, win0_2.index t (0 : Fin 2) = t.val / 18 ∧ win0_2.index t (1 : Fin 2) = 0)
theorem index3 : ∀ t : Fin cfg0.N, win0_3.index t (0 : Fin 2) = t.val / 18 ∧ win0_3.index t (1 : Fin 2) = 0 :=
  (by decide +kernel : ∀ t : Fin grid0.N, win0_3.index t (0 : Fin 2) = t.val / 18 ∧ win0_3.index t (1 : Fin 2) = 0)

theorem lt144 (t : Fin cfg0.N) : t.val < 144 := lt_of_lt_of_eq t.isLt (show cfg0.N = 144 from N_0)

/-- The image block at a point, read at `(p, k)`: the image array at row `512 · (t / 18) + p`. -/
theorem iblk0_apply (c : Dev nD) (t : Fin cfg0.N) (p : Fin 512) (k : Fin 1024) :
    (iblk m c 0 t : Vec F S512x1024 .bf16) (ix2 p k)
      = V m c main_v0 (ix2 (⟨512 * (t.val / 18) + p.val, by have := lt144 t; omega⟩ : Fin 4096) k) := by
  unfold iblk
  rw [View.read_apply]
  show V m c main_v0 _ = V m c main_v0 _
  congr 1
  funext a
  apply Fin.ext
  match a with
  | ⟨0, _⟩ => show win0_0.index t 0 * 512 + 1 * p.val = 512 * (t.val / 18) + p.val; rw [(index0 t).1]; omega
  | ⟨1, _⟩ => show win0_0.index t 1 * 1024 + 1 * k.val = k.val; rw [(index0 t).2]; omega

/-- The column block at a point, read at `(q, k)`: the concatenated array at row `2048 · (t % 18) + q`. -/
theorem iblk1_apply (c : Dev nD) (t : Fin cfg0.N) (q : Fin 2048) (k : Fin 1024) :
    (iblk m c 1 t : Vec F S2048x1024 .bf16) (ix2 q k)
      = V m c main_v3 (ix2 (⟨2048 * (t.val % 18) + q.val, by omega⟩ : Fin 36864) k) := by
  unfold iblk
  rw [View.read_apply]
  show V m c main_v3 _ = V m c main_v3 _
  congr 1
  funext a
  apply Fin.ext
  match a with
  | ⟨0, _⟩ => show win0_1.index t 0 * 2048 + 1 * q.val = 2048 * (t.val % 18) + q.val; rw [(index1 t).1]; omega
  | ⟨1, _⟩ => show win0_1.index t 1 * 1024 + 1 * k.val = k.val; rw [(index1 t).2]; omega

end Cert.KernelIdeal.KValue

end
-- ==== Proof.Spec.lean ====
/-
  The specification both programs meet, over the extended reals.

  For image rows `img : 4096 × 1024`, positive rows `pos : 4096 × 1024` and other rows `oth : 32768 × 1024`:
    sim v n q     = ∑ k, img (n, k) · v (q, k)                       (a row of `img` against a row of `v`)
    posSum n      = ∑ q < 4096,  exp (sim pos n q · 20)
    othSum n      = ∑ q < 32768, exp (sim oth n q · r)               r = 2²⁷ / 13421773, the reciprocal of the binary32 word of 0.1
    loss          = − ∑ n, (log (posSum n) − log (othSum n))
  The scale 20 is kept as its binary32 word (the same word on both sides, never evaluated); `r` is the exact rational
  the kernel's named scale denotes and the value by which dividing by the reference's word `0x3DCCCCCD` multiplies.
-/
import Idealize.ShloMosaic.PureOps.Ideal
import Idealize.ShloMosaic.Lib.ValueIdx

noncomputable section

namespace Cert.Spec

open Idealize.ShloMosaic Idealize.ShloMosaic.ValueIdx

/-- A matrix of extended reals over a literal two-axis shape. -/
abbrev Mat (r c : Nat) : Type := (⟨2, ![r, c]⟩ : Shape).Idx → EReal

/-- The scale of the positive term: the binary32 word of 20. -/
def scalePos : EReal := Ideal.ofBits .f32 0x41A00000#32

/-- The scale of the other term: the reciprocal of the binary32 word of 0.1, `13421773 / 2²⁷`. -/
def scaleOth : EReal := ((134217728 / 13421773 : ℝ) : EReal)

/-- Row `n` of `img` against row `q` of `v`: the sum over the 1024 features of the products. -/
def sim {M : Nat} (img : Mat 4096 1024) (v : Mat M 1024) (n : Fin 4096) (q : Fin M) : EReal :=
  ∑ k : Fin 1024, img (ix2 n k) * v (ix2 q k)

/-- The positive term of row `n`: the sum over the 4096 positive rows of `exp (sim · 20)`. -/
def posSum (img pos : Mat 4096 1024) (n : Fin 4096) : EReal :=
  ∑ q : Fin 4096, Ideal.exp (sim img pos n q * scalePos)

/-- The other term of row `n`: the sum over the 32768 other rows of `exp (sim · r)`. -/
def othSum (img : Mat 4096 1024) (oth : Mat 32768 1024) (n : Fin 4096) : EReal :=
  ∑ q : Fin 32768, Ideal.exp (sim img oth n q * scaleOth)

/-- The loss: minus the sum over the rows of `log posSum − log othSum`. -/
def loss (img pos : Mat 4096 1024) (oth : Mat 32768 1024) : EReal :=
  -(∑ n : Fin 4096, (Ideal.log (posSum img pos n) - Ideal.log (othSum img oth n)))

end Cert.Spec

end
-- ==== Proof.Regroup.lean ====
/-
  Regrouping a sum over columns by lanes.

  A row of `J · 2048` columns is cut into `J` tiles of 2048 columns, each tile into 16 chunks of 128 lanes:
  column `q = j · 2048 + c · 128 + l`.  Summing, for each lane `l`, over all tiles and chunks, and then over the
  lanes, visits every column exactly once; in a commutative monoid the order of the visit does not matter.
-/
import proofs.«120487_j44160853738083_2_alg».proof.Proof.Spec

namespace Cert.KSide

/-- A sum over `a · b` consecutive numbers is the double sum over the quotient and the remainder. -/
theorem sum_fin_mul {M : Type*} [AddCommMonoid M] (a b : ℕ) (f : ℕ → M) :
    ∑ q : Fin (a * b), f q.val = ∑ i : Fin a, ∑ j : Fin b, f (i.val * b + j.val) := by
  rw [← (finProdFinEquiv (m := a) (n := b)).sum_comp, Fintype.sum_prod_type]
  refine Finset.sum_congr rfl fun i _ => Finset.sum_congr rfl fun j _ => ?_
  rw [finProdFinEquiv_apply_val, add_comm, mul_comm]

/-- The lanes cover every column once: lane `l` collects, over the `J` tiles, the 16 chunks of each tile. -/
theorem lanes_cover {M : Type*} [AddCommMonoid M] (J : ℕ) (g : ℕ → M) :
    ∑ l : Fin 128, ∑ j : Fin J, ∑ c : Fin 16, g (j.val * 2048 + c.val * 128 + l.val)
      = ∑ q : Fin (J * 2048), g q.val := by
  rw [sum_fin_mul J 2048 g, Finset.sum_comm]
  refine Finset.sum_congr rfl fun j _ => ?_
  rw [Finset.sum_comm]
  have h := sum_fin_mul 16 128 (fun r => g (j.val * 2048 + r))
  simp only [add_assoc]
  exact h.symm

/-- Two tiles: the 4096 columns of the positive term. -/
theorem lanes_cover_4096 {M : Type*} [AddCommMonoid M] (g : ℕ → M) :
    ∑ l : Fin 128, ∑ j : Fin 2, ∑ c : Fin 16, g (j.val * 2048 + c.val * 128 + l.val)
      = ∑ q : Fin 4096, g q.val :=
  lanes_cover 2 g

/-- Sixteen tiles: the 32768 columns of the other term. -/
theorem lanes_cover_32768 {M : Type*} [AddCommMonoid M] (g : ℕ → M) :
    ∑ l : Fin 128, ∑ j : Fin 16, ∑ c : Fin 16, g (j.val * 2048 + c.val * 128 + l.val)
      = ∑ q : Fin 32768, g q.val :=
  lanes_cover 16 g

/-- Sixteen terms added one after the other are their sum. -/
theorem add16 {M : Type*} [AddCommMonoid M] (a : ℕ → M) :
    a 0 + a 1 + a 2 + a 3 + a 4 + a 5 + a 6 + a 7 + a 8 + a 9 + a 10 + a 11 + a 12 + a 13 + a 14 + a 15 = ∑ c : Fin 16, a c.val := by
  rw [Fin.sum_univ_eq_sum_range (fun c => a c) 16]
  simp only [Finset.sum_range_succ, Finset.sum_range_zero, zero_add]

/-- The same for a function of the sixteen chunk numbers. -/
theorem add16_fin {M : Type*} [AddCommMonoid M] (a : Fin 16 → M) :
    a ⟨0, by omega⟩ + a ⟨1, by omega⟩ + a ⟨2, by omega⟩ + a ⟨3, by omega⟩ + a ⟨4, by omega⟩ + a ⟨5, by omega⟩ + a ⟨6, by omega⟩ + a ⟨7, by omega⟩ + a ⟨8, by omega⟩ + a ⟨9, by omega⟩ + a ⟨10, by omega⟩ + a ⟨11, by omega⟩ + a ⟨12, by omega⟩ + a ⟨13, by omega⟩ + a ⟨14, by omega⟩ + a ⟨15, by omega⟩ = ∑ c : Fin 16, a c := by
  have h := add16 (fun n => if h : n < 16 then a ⟨n, h⟩ else 0)
  simpa using h

end Cert.KSide
-- ==== Proof.PayAt.lean ====
/-
  The kernel body's values at an index.

  The two accumulators start as zero.  One grid step multiplies a 512 × 1024 block of image rows with a
  2048 × 1024 block of column rows (contracting the 1024 features of both), scales, exponentiates, and adds the
  sixteen 128-lane chunks of the 2048 columns, lane by lane, into the 512 × 128 accumulator: lane `l` of row `p`
  gains the sum over the chunks `c` of `exp (⟨x0 p, x1 (c · 128 + l)⟩ · scale)`.  The last step sums the 128
  lanes of each row.
-/
import proofs.«120487_j44160853738083_2_alg».proof.Proof.Gen.KernelIdeal.Skeleton
import proofs.«120487_j44160853738083_2_alg».proof.Proof.Spec
import proofs.«120487_j44160853738083_2_alg».proof.Proof.Regroup
import Idealize.ShloMosaic.Lib.Pipeline.Value
import Idealize.ShloMosaic.Lib.ValueIdx
import Idealize.ShloMosaic.PureOps.Ideal.Laws
import Idealize.ShloMosaic.PureOps.IdealRules

noncomputable section

namespace Cert.KSide

open Idealize.ShloMosaic Idealize.ShloMosaic.ValueIdx Cert.KernelIdeal Cert.KernelIdeal.Gen Cert.Spec

/-! ### The accumulators' initial value -/

/-- The positive accumulator starts at zero. -/
theorem pay1_at (p : Fin 512) (l : Fin 128) : k0_pay1 (F := Ideal) (ix2 p l) = 0 := by
  unfold k0_pay1
  rw [shapeCast_self]
  exact Ideal.ofBits_zero_f32

/-- The other accumulator starts at zero. -/
theorem pay2_at (p : Fin 512) (l : Fin 128) : k0_pay2 (F := Ideal) (ix2 p l) = 0 := by
  unfold k0_pay2
  rw [shapeCast_self]
  exact Ideal.ofBits_zero_f32

/-! ### The lane sums -/

/-- Summing an accumulator over its 128 lanes, kept as a column. -/
theorem lane_sum_at (acc : FVec Ideal S512x128 .f32) (p : Fin 512) :
    shapeCast S512x1 (multiReduction .add [1] S512 acc 0x00000000#32 reduces_S512x128_S512 (.inl rfl) rfl)
        shapeCasts_S512_S512x1 (ix2 p 0)
      = ∑ l : Fin 128, acc (ix2 p l) := by
  refine (shapeCast_apply _ shapeCasts_S512_S512x1 (ix2 p 0) (ix1 p) ?_).trans ?_
  · rw [Shape.rowMajor_val_one, Shape.rowMajor_val_two]
    show p.val = p.val * 1 + 0
    omega
  · refine (Ideal.multiReduction_add_single acc 0x00000000#32 reduces_S512x128_S512 (.inl rfl) rfl (ix1 p)).trans ?_
    refine Finset.sum_congr rfl fun k _ => congrArg acc (funext fun a => Fin.ext ?_)
    match a with
    | ⟨0, _⟩ => rfl
    | ⟨1, _⟩ => rfl

/-- The positive output column: the lane sum of the positive accumulator. -/
theorem pay6_at (acc : Vec Ideal S512x128 .f32) (p : Fin 512) :
    k0_pay6 (F := Ideal) acc (ix2 p 0) = ∑ l : Fin 128, acc (ix2 p l) :=
  lane_sum_at acc p

/-- The other output column: the lane sum of the other accumulator. -/
theorem pay7_at (acc : Vec Ideal S512x128 .f32) (p : Fin 512) :
    k0_pay7 (F := Ideal) acc (ix2 p 0) = ∑ l : Fin 128, acc (ix2 p l) :=
  lane_sum_at acc p

/-! ### The product of the two blocks -/

/-- The left operand's row coordinate is the output's row. -/
theorem lhs_row (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- The right operand's row coordinate is the output's column. -/
theorem rhs_row (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- An entry of the block product: image row `p` against column row `q`, over the 1024 features. -/
theorem pay3_at (x0 : FVec Ideal S512x1024 .bf16) (x1 : FVec Ideal S2048x1024 .bf16) (p : Fin 512) (q : Fin 2048) :
    k0_pay3 (F := Ideal) x0 x1 (ix2 p q) = ∑ k : Fin 1024, x0 (ix2 p k) * x1 (ix2 q k) := by
  unfold k0_pay3
  rw [shapeCast_self, shapeCast_self]
  refine (Ideal.matmul_constant_zero_apply dot_S512x1024_S2048x1024_S512x2048_1_1_0_0_n_n none x0 x1 (ix2 p q)).trans ?_
  rw [← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 p q) ((ValueIdx.contrEquiv1 dot_S512x1024_S2048x1024_S512x2048_1_1_0_0_n_n 1024 rfl rfl).symm k) = ix2 p k :=
    funext fun a => Fin.ext (by
      match a with
      | ⟨0, _⟩ => exact lhs_row _ _
      | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p q) ((ValueIdx.contrEquiv1 dot_S512x1024_S2048x1024_S512x2048_1_1_0_0_n_n 1024 rfl rfl).symm k) = ix2 q k :=
    funext fun a => Fin.ext (by
      match a with
      | ⟨0, _⟩ => exact rhs_row _ _
      | ⟨1, _⟩ => exact (dot_S512x1024_S2048x1024_S512x2048_1_1_0_0_n_n.rhsIdx_val_of_single rfl _ _).trans hk)
  rw [el, er]

/-! ### The sixteen lane chunks -/

/-- A 512 × 128 piece of a 512 × 2048 array at column offset `off`, read at row `p`, lane `l`. -/
theorem slice_at (off : ℕ) (h : S512x2048.Slices ![0, off] S512x128) (e : FVec Ideal S512x2048 .f32)
    (p : Fin 512) (l : Fin 128) (q : Fin 2048) (hq : q.val = off + l.val) :
    extractStridedSlice S512x128 ![0, off] e h (ix2 p l) = e (ix2 p q) :=
  extractStridedSlice_apply _ e h (ix2 p l) (ix2 p q) (fun a => by
    match a with
    | ⟨0, _⟩ => show p.val = 0 + p.val; omega
    | ⟨1, _⟩ => exact hq)

/-- Adding the sixteen chunks of a 512 × 2048 array, one after the other, to an accumulator: lane `l` of row `p`
    gains the entries of row `p` at the columns `c · 128 + l`. -/
theorem chunk_sum_at (e : FVec Ideal S512x2048 .f32) (acc : FVec Ideal S512x128 .f32) (p : Fin 512) (l : Fin 128) :
    shapeCast S512x128 (addf acc (addf (addf (addf (addf (addf (addf (addf (addf (addf (addf (addf (addf (addf (addf (addf (extractStridedSlice S512x128 ![0, 0] e slices_S512x2048_o0_0_S512x128) (extractStridedSlice S512x128 ![0, 128] e slices_S512x2048_o0_128_S512x128)) (extractStridedSlice S512x128 ![0, 256] e slices_S512x2048_o0_256_S512x128)) (extractStridedSlice S512x128 ![0, 384] e slices_S512x2048_o0_384_S512x128)) (extractStridedSlice S512x128 ![0, 512] e slices_S512x2048_o0_512_S512x128)) (extractStridedSlice S512x128 ![0, 640] e slices_S512x2048_o0_640_S512x128)) (extractStridedSlice S512x128 ![0, 768] e slices_S512x2048_o0_768_S512x128)) (extractStridedSlice S512x128 ![0, 896] e slices_S512x2048_o0_896_S512x128)) (extractStridedSlice S512x128 ![0, 1024] e slices_S512x2048_o0_1024_S512x128)) (extractStridedSlice S512x128 ![0, 1152] e slices_S512x2048_o0_1152_S512x128)) (extractStridedSlice S512x128 ![0, 1280] e slices_S512x2048_o0_1280_S512x128)) (extractStridedSlice S512x128 ![0, 1408] e slices_S512x2048_o0_1408_S512x128)) (extractStridedSlice S512x128 ![0, 1536] e slices_S512x2048_o0_1536_S512x128)) (extractStridedSlice S512x128 ![0, 1664] e slices_S512x2048_o0_1664_S512x128)) (extractStridedSlice S512x128 ![0, 1792] e slices_S512x2048_o0_1792_S512x128)) (extractStridedSlice S512x128 ![0, 1920] e slices_S512x2048_o0_1920_S512x128))) shapeCasts_S512x128_S512x128 (ix2 p l)
      = acc (ix2 p l) + ∑ c : Fin 16, e (ix2 p ⟨c.val * 128 + l.val, by omega⟩) := by
  rw [shapeCast_self]
  simp only [addf_apply]
  rw [slice_at 0 _ e p l ⟨0 * 128 + l.val, by omega⟩ (by simp),
    slice_at 128 _ e p l ⟨1 * 128 + l.val, by omega⟩ (by simp),
    slice_at 256 _ e p l ⟨2 * 128 + l.val, by omega⟩ (by simp),
    slice_at 384 _ e p l ⟨3 * 128 + l.val, by omega⟩ (by simp),
    slice_at 512 _ e p l ⟨4 * 128 + l.val, by omega⟩ (by simp),
    slice_at 640 _ e p l ⟨5 * 128 + l.val, by omega⟩ (by simp),
    slice_at 768 _ e p l ⟨6 * 128 + l.val, by omega⟩ (by simp),
    slice_at 896 _ e p l ⟨7 * 128 + l.val, by omega⟩ (by simp),
    slice_at 1024 _ e p l ⟨8 * 128 + l.val, by omega⟩ (by simp),
    slice_at 1152 _ e p l ⟨9 * 128 + l.val, by omega⟩ (by simp),
    slice_at 1280 _ e p l ⟨10 * 128 + l.val, by omega⟩ (by simp),
    slice_at 1408 _ e p l ⟨11 * 128 + l.val, by omega⟩ (by simp),
    slice_at 1536 _ e p l ⟨12 * 128 + l.val, by omega⟩ (by simp),
    slice_at 1664 _ e p l ⟨13 * 128 + l.val, by omega⟩ (by simp),
    slice_at 1792 _ e p l ⟨14 * 128 + l.val, by omega⟩ (by simp),
    slice_at 1920 _ e p l ⟨15 * 128 + l.val, by omega⟩ (by simp)]
  exact congrArg (acc (ix2 p l) + ·) (add16_fin (fun c : Fin 16 => e (ix2 p ⟨c.val * 128 + l.val, by omega⟩)))

/-! ### One grid step of each accumulator -/

/-- The kernel's named scale denotes the reciprocal of the word of `0.1`. -/
theorem inv_temperature :
    Named.named (F := Ideal) Cert.KernelIdeal.κ "inv_temperature" (φ := .f32) 0x41200000#32 = scaleOth :=
  IdealRules.named_const.ideal_named_scalar _ _ _ _ rfl

/-- One step of the positive accumulator: lane `l` of row `p` gains, over the sixteen chunks, the exponential of
    the scaled product of image row `p` with column row `c · 128 + l`. -/
theorem pay4_at (x0 : FVec Ideal S512x1024 .bf16) (x1 : FVec Ideal S2048x1024 .bf16) (acc : Vec Ideal S512x128 .f32)
    (p : Fin 512) (l : Fin 128) :
    k0_pay4 (F := Ideal) x0 x1 acc (ix2 p l)
      = acc (ix2 p l) + ∑ c : Fin 16, Ideal.exp ((∑ k : Fin 1024, x0 (ix2 p k) * x1 (ix2 ⟨c.val * 128 + l.val, by omega⟩ k)) * scalePos) := by
  unfold k0_pay4
  refine (chunk_sum_at _ acc p l).trans (congrArg (acc (ix2 p l) + ·) (Finset.sum_congr rfl fun c _ => ?_))
  show Ideal.exp (k0_pay3 (F := Ideal) x0 x1 (ix2 p ⟨c.val * 128 + l.val, by omega⟩) * Ideal.ofBits .f32 0x41A00000#32) = _
  rw [pay3_at]
  rfl

/-- One step of the other accumulator: the same with the other scale. -/
theorem pay5_at (x0 : FVec Ideal S512x1024 .bf16) (x1 : FVec Ideal S2048x1024 .bf16) (acc : Vec Ideal S512x128 .f32)
    (p : Fin 512) (l : Fin 128) :
    k0_pay5 (F := Ideal) x0 x1 acc (ix2 p l)
      = acc (ix2 p l) + ∑ c : Fin 16, Ideal.exp ((∑ k : Fin 1024, x0 (ix2 p k) * x1 (ix2 ⟨c.val * 128 + l.val, by omega⟩ k)) * scaleOth) := by
  unfold k0_pay5
  refine (chunk_sum_at _ acc p l).trans (congrArg (acc (ix2 p l) + ·) (Finset.sum_congr rfl fun c _ => ?_))
  show Ideal.exp (k0_pay3 (F := Ideal) x0 x1 (ix2 p ⟨c.val * 128 + l.val, by omega⟩)
    * Named.named (F := Ideal) Cert.KernelIdeal.κ "inv_temperature" (φ := .f32) 0x41200000#32) = _
  rw [pay3_at, inv_temperature]

end Cert.KSide

end
-- ==== Proof.KVAcc.lean ====
/-
  What the two accumulators hold after each point, at the ideal instance, lane by lane.

  Write `imgRow r` for row `r` of the image array as the region finds it and `catRow q` for row `q` of the concatenated
  array (the 4096 positive rows, then the 32768 other rows). One column's term at scale `s` is
  `term s n q = exp ((∑ k, imgRow n k · catRow q k) · s)`. Column tile `j` of row tile `i` contributes to lane `l` of
  row `p` the sum of its sixteen lane chunks, `tileTerm s i j p l = ∑ c < 16, term s (512 i + p) (2048 j + (128 c + l))`.
  After point `n` (row tile `n / 18`, column tile `n % 18`) the first accumulator holds the terms at scale 20 of the
  positive tiles met so far in the row tile (tile 0, and tile 1 once `n % 18 ≥ 1`), the second the terms at the other scale
  of the other tiles met so far (tiles 2 … `n % 18`): by induction on the point, the reset at column tile 0 starting both
  sums afresh. Sums over the extended reals are commutative and associative, so no finiteness is used.
-/
import proofs.«120487_j44160853738083_2_alg».proof.Proof.BodyI
import proofs.«120487_j44160853738083_2_alg».proof.Proof.KVBlocks
import proofs.«120487_j44160853738083_2_alg».proof.Proof.PayAt

set_option maxRecDepth 16384

noncomputable section

namespace Cert.KernelIdeal.KValue

open Cert.KernelIdeal Cert.KernelIdeal.Gen Cert.KernelIdeal.Body Cert.KSide Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- Row `r` of the image array as the region finds it (0 past the array). -/
def imgRow (c : Dev nD) (r : ℕ) (k : Fin 1024) : EReal :=
  if h : r < 4096 then (V m c main_v0 (ix2 (⟨r, h⟩ : Fin 4096) k) : EReal) else 0

/-- Row `q` of the concatenated array as the region finds it (0 past the array). -/
def catRow (c : Dev nD) (q : ℕ) (k : Fin 1024) : EReal :=
  if h : q < 36864 then (V m c main_v3 (ix2 (⟨q, h⟩ : Fin 36864) k) : EReal) else 0

/-- One column's term: `exp` of the scaled product of image row `n` with concatenated row `q`. -/
def term (s : EReal) (c : Dev nD) (n q : ℕ) : EReal :=
  Ideal.exp ((∑ k : Fin 1024, imgRow m c n k * catRow m c q k) * s)

/-- Column tile `j` of row tile `i`, at lane `l` of row `p`: its sixteen lane chunks. -/
def tileTerm (s : EReal) (c : Dev nD) (i j : ℕ) (p : Fin 512) (l : Fin 128) : EReal :=
  ∑ cc : Fin 16, term m s c (512 * i + p.val) (2048 * j + (cc.val * 128 + l.val))

/-- The image block at a point, read at `(p, k)`, is image row `512 · (t / 18) + p`. -/
theorem iblk0_row (c : Dev nD) (t : Fin cfg0.N) (p : Fin 512) (k : Fin 1024) :
    (iblk m c 0 t : FVec Ideal S512x1024 .bf16) (ix2 p k) = imgRow m c (512 * (t.val / 18) + p.val) k := by
  have ht := lt144 t
  refine (iblk0_apply (F := Ideal) m c t p k).trans ?_
  unfold imgRow
  rw [dif_pos (by omega)]

/-- The column block at a point, read at `(q, k)`, is concatenated row `2048 · (t % 18) + q`. -/
theorem iblk1_row (c : Dev nD) (t : Fin cfg0.N) (q : Fin 2048) (k : Fin 1024) :
    (iblk m c 1 t : FVec Ideal S2048x1024 .bf16) (ix2 q k) = catRow m c (2048 * (t.val % 18) + q.val) k := by
  refine (iblk1_apply (F := Ideal) m c t q k).trans ?_
  unfold catRow
  rw [dif_pos (by omega)]

/-- A positive tile's store, over any two blocks that are rows `512 i …` of the image array and rows `2048 j …` of the
    concatenated array: the accumulator plus the tile's term at scale 20. -/
theorem pay4_rows (c : Dev nD) (i j : ℕ) (x0 : FVec Ideal S512x1024 .bf16) (x1 : FVec Ideal S2048x1024 .bf16)
    (h0 : ∀ (p : Fin 512) (k : Fin 1024), x0 (ix2 p k) = imgRow m c (512 * i + p.val) k)
    (h1 : ∀ (q : Fin 2048) (k : Fin 1024), x1 (ix2 q k) = catRow m c (2048 * j + q.val) k)
    (acc : Vec Ideal S512x128 .f32) (p : Fin 512) (l : Fin 128) :
    k0_pay4 (F := Ideal) x0 x1 acc (ix2 p l) = acc (ix2 p l) + tileTerm m scalePos c i j p l := by
  rw [pay4_at]
  congr 1
  unfold tileTerm term
  refine Finset.sum_congr rfl fun cc _ => ?_
  congr 2
  refine Finset.sum_congr rfl fun k _ => ?_
  rw [h0, h1]

/-- An other tile's store, likewise: the accumulator plus the tile's term at the other scale. -/
theorem pay5_rows (c : Dev nD) (i j : ℕ) (x0 : FVec Ideal S512x1024 .bf16) (x1 : FVec Ideal S2048x1024 .bf16)
    (h0 : ∀ (p : Fin 512) (k : Fin 1024), x0 (ix2 p k) = imgRow m c (512 * i + p.val) k)
    (h1 : ∀ (q : Fin 2048) (k : Fin 1024), x1 (ix2 q k) = catRow m c (2048 * j + q.val) k)
    (acc : Vec Ideal S512x128 .f32) (p : Fin 512) (l : Fin 128) :
    k0_pay5 (F := Ideal) x0 x1 acc (ix2 p l) = acc (ix2 p l) + tileTerm m scaleOth c i j p l := by
  rw [pay5_at]
  congr 1
  unfold tileTerm term
  refine Finset.sum_congr rfl fun cc _ => ?_
  congr 2
  refine Finset.sum_congr rfl fun k _ => ?_
  rw [h0, h1]

/-- A positive tile's store at a point. -/
theorem pay4_step (c : Dev nD) (t : Fin cfg0.N) (acc : Vec Ideal S512x128 .f32) (p : Fin 512) (l : Fin 128) :
    k0_pay4 (F := Ideal) (iblk m c 0 t) (iblk m c 1 t) acc (ix2 p l)
      = acc (ix2 p l) + tileTerm m scalePos c (t.val / 18) (t.val % 18) p l :=
  pay4_rows m c (t.val / 18) (t.val % 18) (iblk m c 0 t) (iblk m c 1 t) (iblk0_row m c t) (iblk1_row m c t) acc p l

/-- An other tile's store at a point. -/
theorem pay5_step (c : Dev nD) (t : Fin cfg0.N) (acc : Vec Ideal S512x128 .f32) (p : Fin 512) (l : Fin 128) :
    k0_pay5 (F := Ideal) (iblk m c 0 t) (iblk m c 1 t) acc (ix2 p l)
      = acc (ix2 p l) + tileTerm m scaleOth c (t.val / 18) (t.val % 18) p l :=
  pay5_rows m c (t.val / 18) (t.val % 18) (iblk m c 0 t) (iblk m c 1 t) (iblk0_row m c t) (iblk1_row m c t) acc p l

/-- THE ACCUMULATORS after point `n`: the positive tiles met so far at scale 20, and the other tiles met so far at the
    other scale, of the point's row tile. -/
theorem acc_eq (c : Dev nD) : ∀ (n : ℕ) (hn : n < cfg0.N) (p : Fin 512) (l : Fin 128),
    (accAt m c n hn).1 (ix2 p l) = ∑ j ∈ Finset.range (min (n % 18) 1 + 1), tileTerm m scalePos c (n / 18) j p l
    ∧ (accAt m c n hn).2 (ix2 p l) = ∑ j ∈ Finset.Ico 2 (n % 18 + 1), tileTerm m scaleOth c (n / 18) j p l
  | 0, hn, p, l => by
    constructor
    · show k0_pay4 (F := Ideal) (iblk m c 0 ⟨0, hn⟩) (iblk m c 1 ⟨0, hn⟩) (k0_pay1 (F := Ideal)) (ix2 p l) = _
      rw [pay4_step m c ⟨0, hn⟩, pay1_at, zero_add]
      simp
    · show k0_pay2 (F := Ideal) (ix2 p l) = _
      rw [pay2_at]
      simp
  | n + 1, hn, p, l => by
    obtain ⟨ihP, ihO⟩ := acc_eq c n (Nat.lt_of_succ_lt hn) p l
    have hN : n + 1 < 144 := lt_of_lt_of_eq hn (show cfg0.N = 144 from N_0)
    rw [accAt]
    by_cases h0 : (n + 1) % 18 = 0
    · rw [if_pos h0]
      dsimp only
      constructor
      · rw [pay4_step m c ⟨n + 1, hn⟩, pay1_at, zero_add]
        show tileTerm m scalePos c ((n + 1) / 18) ((n + 1) % 18) p l = _
        rw [h0]
        simp
      · rw [pay2_at, h0]
        simp
    · rw [if_neg h0]
      by_cases h1 : (n + 1) % 18 < 2
      · rw [if_pos h1]
        dsimp only
        have e1 : (n + 1) % 18 = 1 := by omega
        have en : n % 18 = 0 := by omega
        have ed : (n + 1) / 18 = n / 18 := by omega
        constructor
        · rw [pay4_step m c ⟨n + 1, hn⟩, ihP]
          show (∑ j ∈ Finset.range (min (n % 18) 1 + 1), tileTerm m scalePos c (n / 18) j p l)
              + tileTerm m scalePos c ((n + 1) / 18) ((n + 1) % 18) p l = _
          rw [e1, en, ed]
          simp [Finset.sum_range_succ]
        · rw [ihO, e1, en, ed]
          simp
      · rw [if_neg h1]
        dsimp only
        have ed : (n + 1) / 18 = n / 18 := by omega
        have en : (n + 1) % 18 = n % 18 + 1 := by omega
        constructor
        · rw [ihP, ed]
          have a1 : min (n % 18) 1 = 1 := by omega
          have a2 : min ((n + 1) % 18) 1 = 1 := by omega
          rw [a1, a2]
        · rw [pay5_step m c ⟨n + 1, hn⟩, ihO]
          show (∑ j ∈ Finset.Ico 2 (n % 18 + 1), tileTerm m scaleOth c (n / 18) j p l)
              + tileTerm m scaleOth c ((n + 1) / 18) ((n + 1) % 18) p l = _
          rw [ed, en, Finset.sum_Ico_succ_top (by omega : 2 ≤ n % 18 + 1)]

end Cert.KernelIdeal.KValue

end
-- ==== Proof.StagedInputs.lean ====
/-
  The arrays the kernel's windows stage, as the region finds them.

  Before the region the host rounds the three arguments to bfloat16 (the identity on extended reals) and lays
  the positive rows and the other rows one after the other along the row axis: row `r < 4096` of the joined
  array is positive row `r`, row `4096 + r` is other row `r`.
-/
import proofs.«120487_j44160853738083_2_alg».proof.Proof.Gen.KernelIdeal.Frame
import Idealize.ShloMosaic.Lib.Pipeline.Value
import Idealize.ShloMosaic.Lib.ValueIdx

noncomputable section

namespace Cert.KSide

open Idealize.ShloMosaic Idealize.ShloMosaic.ValueIdx Idealize.ShloMosaic.TcCoe Idealize.ShloMosaic.Tactic
open Idealize.SL.Sem Cert.KernelIdeal Cert.KernelIdeal.Gen

variable (m : (ℓ : Loc nD τ sig) → Buf (Elt Ideal) ℓ)

/-- The image window's array is the image argument. -/
theorem V_main_v0 (c : Dev nD) :
    (Gen.V m c main_v0 : S4096x1024.Idx → EReal) = (m ((c : Thread nD τ).loc main_arg0) : S4096x1024.Idx → EReal) := by
  show StableHlo.after hostOps0 (fun b => m (c, b)) (Proc.devRef .tc main_v0) = _
  after_results
  rfl

/-- The column window's array is the positive rows followed by the other rows. -/
theorem V_main_v3 (c : Dev nD) :
    (Gen.V m c main_v3 : S36864x1024.Idx → EReal)
      = concatenate S36864x1024 0
          [⟨S4096x1024, (m ((c : Thread nD τ).loc main_arg1) : S4096x1024.Idx → EReal)⟩,
           ⟨S32768x1024, (m ((c : Thread nD τ).loc main_arg2) : S32768x1024.Idx → EReal)⟩]
          Gen.concatenates_S4096x1024_S32768x1024_S36864x1024_d0 := by
  show StableHlo.after hostOps0 (fun b => m (c, b)) (Proc.devRef .tc main_v3) = _
  after_results
  rfl

/-- Row `r < 4096` of the column window's array is positive row `r`. -/
theorem V_main_v3_pos (c : Dev nD) (r : Fin 4096) (k : Fin 1024) :
    (Gen.V m c main_v3 : S36864x1024.Idx → EReal) (ix2 (⟨r.val, by omega⟩ : Fin 36864) k)
      = (m ((c : Thread nD τ).loc main_arg1) : S4096x1024.Idx → EReal) (ix2 r k) := by
  rw [V_main_v3]
  exact concatenate_pair_apply_left (s₁ := S4096x1024) (s₂ := S32768x1024) 0 _ _ _ (ix2 (⟨r.val, by omega⟩ : Fin 36864) k) rfl (ix2 r k)
    (fun b => match b with | ⟨0, _⟩ => rfl | ⟨1, _⟩ => rfl)

/-- Row `4096 + r` of the column window's array is other row `r`. -/
theorem V_main_v3_oth (c : Dev nD) (r : Fin 32768) (k : Fin 1024) :
    (Gen.V m c main_v3 : S36864x1024.Idx → EReal) (ix2 (⟨4096 + r.val, by omega⟩ : Fin 36864) k)
      = (m ((c : Thread nD τ).loc main_arg2) : S32768x1024.Idx → EReal) (ix2 r k) := by
  rw [V_main_v3]
  refine concatenate_pair_apply_right (s₁ := S4096x1024) (s₂ := S32768x1024) 0 _ _ _ (ix2 (⟨4096 + r.val, by omega⟩ : Fin 36864) k) rfl rfl (ix2 r k)
    (fun b hb => ?_) ?_
  · match b with
    | ⟨0, _⟩ => exact absurd rfl hb
    | ⟨1, _⟩ => rfl
  · show r.val + 4096 = 4096 + r.val
    omega

end Cert.KSide

end
-- ==== Proof.RowSums.lean ====
/-
  The lane sums of the accumulators are the two terms of a row.

  Lane `l` of row `p` of row tile `i` has collected, over the two positive column tiles, the sixteen chunks of each:
  the columns `j · 2048 + c · 128 + l`.  Over the 128 lanes these are the 4096 positive columns, each once, and the
  column's term is `exp (⟨image row, positive row⟩ · 20)`: the lanes add up to the positive term of row `512 i + p`.
  The sixteen other column tiles start at row 4096 of the joined array, so their columns are
  `4096 + (j · 2048 + c · 128 + l)`: the 32768 other rows, each once, at the other scale.
-/
import proofs.«120487_j44160853738083_2_alg».proof.Proof.KVAcc
import proofs.«120487_j44160853738083_2_alg».proof.Proof.Regroup
import proofs.«120487_j44160853738083_2_alg».proof.Proof.StagedInputs
import proofs.«120487_j44160853738083_2_alg».proof.Proof.Spec

noncomputable section

namespace Cert.KSide

open Cert.KernelIdeal Cert.KernelIdeal.Gen Cert.KernelIdeal.KValue Cert.Spec
open Idealize.ShloMosaic Idealize.ShloMosaic.TcCoe Idealize.ShloMosaic.ValueIdx
open Idealize.SL Idealize.SL.Sem

variable (m : (ℓ : Loc nD τ sig) → Buf (Elt Ideal) ℓ)

/-- The term of a positive column: image row `n` against positive row `q`, at the scale 20. -/
theorem term_pos (c : Dev nD) (n q : Fin 4096) :
    term m scalePos c n.val q.val
      = Ideal.exp (sim (m ((c : Thread nD τ).loc main_arg0) : Mat 4096 1024)
          (m ((c : Thread nD τ).loc main_arg1) : Mat 4096 1024) n q * scalePos) := by
  unfold term sim
  refine congrArg (fun x => Ideal.exp (x * scalePos)) (Finset.sum_congr rfl fun k _ => ?_)
  unfold imgRow catRow
  rw [dif_pos n.isLt, dif_pos (show q.val < 36864 by omega)]
  exact congrArg₂ (· * ·) (congrFun (V_main_v0 m c) (ix2 n k)) (V_main_v3_pos m c q k)

/-- The term of an other column: image row `n` against other row `q`, which is row `4096 + q` of the joined array. -/
theorem term_oth (c : Dev nD) (n : Fin 4096) (q : Fin 32768) :
    term m scaleOth c n.val (4096 + q.val)
      = Ideal.exp (sim (m ((c : Thread nD τ).loc main_arg0) : Mat 4096 1024)
          (m ((c : Thread nD τ).loc main_arg2) : Mat 32768 1024) n q * scaleOth) := by
  unfold term sim
  refine congrArg (fun x => Ideal.exp (x * scaleOth)) (Finset.sum_congr rfl fun k _ => ?_)
  unfold imgRow catRow
  rw [dif_pos n.isLt, dif_pos (show 4096 + q.val < 36864 by omega)]
  exact congrArg₂ (· * ·) (congrFun (V_main_v0 m c) (ix2 n k)) (V_main_v3_oth m c q k)

/-- The lanes of the positive accumulator add up to the positive term of the row. -/
theorem lanes_pos (c : Dev nD) (i : ℕ) (hi : i < 8) (p : Fin 512) :
    ∑ l : Fin 128, ∑ j ∈ Finset.range 2, tileTerm m scalePos c i j p l
      = posSum (m ((c : Thread nD τ).loc main_arg0) : Mat 4096 1024)
          (m ((c : Thread nD τ).loc main_arg1) : Mat 4096 1024) (⟨512 * i + p.val, by omega⟩ : Fin 4096) := by
  have e : ∀ l : Fin 128, ∑ j ∈ Finset.range 2, tileTerm m scalePos c i j p l
      = ∑ j : Fin 2, ∑ cc : Fin 16, term m scalePos c (512 * i + p.val) (j.val * 2048 + cc.val * 128 + l.val) := by
    intro l
    rw [Finset.sum_range]
    refine Finset.sum_congr rfl fun j _ => ?_
    unfold tileTerm
    refine Finset.sum_congr rfl fun cc _ => ?_
    exact congrArg (term m scalePos c (512 * i + p.val)) (by omega)
  rw [Finset.sum_congr rfl fun l _ => e l]
  refine (lanes_cover_4096 (fun q => term m scalePos c (512 * i + p.val) q)).trans ?_
  unfold posSum
  exact Finset.sum_congr rfl fun q _ => term_pos m c (⟨512 * i + p.val, by omega⟩ : Fin 4096) q

/-- The lanes of the other accumulator add up to the other term of the row. -/
theorem lanes_oth (c : Dev nD) (i : ℕ) (hi : i < 8) (p : Fin 512) :
    ∑ l : Fin 128, ∑ j ∈ Finset.Ico 2 18, tileTerm m scaleOth c i j p l
      = othSum (m ((c : Thread nD τ).loc main_arg0) : Mat 4096 1024)
          (m ((c : Thread nD τ).loc main_arg2) : Mat 32768 1024) (⟨512 * i + p.val, by omega⟩ : Fin 4096) := by
  have e : ∀ l : Fin 128, ∑ j ∈ Finset.Ico 2 18, tileTerm m scaleOth c i j p l
      = ∑ j : Fin 16, ∑ cc : Fin 16,
          term m scaleOth c (512 * i + p.val) (4096 + (j.val * 2048 + cc.val * 128 + l.val)) := by
    intro l
    rw [Finset.sum_Ico_eq_sum_range, show 18 - 2 = 16 from rfl, Finset.sum_range]
    refine Finset.sum_congr rfl fun j _ => ?_
    unfold tileTerm
    refine Finset.sum_congr rfl fun cc _ => ?_
    exact congrArg (term m scaleOth c (512 * i + p.val)) (by omega)
  rw [Finset.sum_congr rfl fun l _ => e l]
  refine (lanes_cover_32768 (fun q => term m scaleOth c (512 * i + p.val) (4096 + q))).trans ?_
  unfold othSum
  exact Finset.sum_congr rfl fun q _ => term_oth m c (⟨512 * i + p.val, by omega⟩ : Fin 4096) q

end Cert.KSide

end
-- ==== Proof.TailIsLoss.lean ====
/-
  The operations after the kernel's region compose to the loss.

  The region leaves two columns of 4096 entries: the positive term and the other term of every row.  The host
  then takes the logarithm of each, subtracts, sums all 4096 × 1 entries from the zero word (which adds nothing)
  and negates: minus the sum over the rows of `log posSum − log othSum`, the loss of the specification.
-/
import proofs.«120487_j44160853738083_2_alg».proof.KernelIdeal
import proofs.«120487_j44160853738083_2_alg».proof.Proof.Spec
import Idealize.ShloMosaic.PureOps.Ideal.Laws

noncomputable section

namespace Cert.KSide

open Idealize.ShloMosaic Idealize.ShloMosaic.ValueIdx Cert.KernelIdeal Cert.KernelIdeal.Facts₀ Cert.Spec

variable [Cert.KernelIdeal.Facts]

/-- Logarithms, difference, total sum from zero and negation of the two term columns give the loss. -/
theorem tail_is_loss (o0 o1 : (⟨S4096x1, .f32⟩ : BufTy).Contents (Elt Ideal))
    (img pos : Mat 4096 1024) (oth : Mat 32768 1024)
    (h0 : ∀ n : Fin 4096, o0 (ix2 n 0) = posSum img pos n)
    (h1 : ∀ n : Fin 4096, o1 (ix2 n 0) = othSum img oth n) :
    Host.negf (F := Ideal) (Host.reduceAdd (F := Ideal)
        (subf (Host.log (F := Ideal) o0) (Host.log (F := Ideal) o1))
        (constant (F := Ideal) S_ .f32 0x00000000#32) reducesTo_S4096x1_S_d0_1 h_S_)
      = fun _ => loss img pos oth := by
  funext i
  show FloatOps.hostNegf (Host.reduceAdd (F := Ideal) _ _ reducesTo_S4096x1_S_d0_1 h_S_ i) = _
  simp only [Host.reduceAdd, Ideal.hostReduceAdd_def, Ideal.hostNegf_def, Ideal.negf_def]
  rw [Ideal.hostReduceAdd_total reducesTo_S4096x1_S_d0_1 (fun b => b.elim0)]
  simp only [constant_apply, Ideal.ofBits_zero_f32, zero_add]
  unfold loss
  rw [sum_idx2]
  refine congrArg Neg.neg (Finset.sum_congr rfl fun n _ => ?_)
  rw [Fin.sum_univ_one]
  show Ideal.log (o0 (ix2 n 0)) - Ideal.log (o1 (ix2 n 0)) = _
  rw [h0, h1]

end Cert.KSide

end
-- ==== Proof.KVFinal.lean ====
/-
  The kernel's two output arrays and its result, at the ideal instance.

  The outputs' blocks are written back at the last column tile of each row tile only (t % 18 = 17), and there each block
  holds the lane sums of its accumulator. By the accumulators' closed form, row `p` of row tile `i` of the first output is
  the sum over the 128 lanes of the two positive tiles' terms — every positive column once — which is the specification's
  positive term of row `512 i + p`; likewise the second output and the sixteen other tiles. The eight flushed blocks of
  each output tile its array (row `r` lies in the block flushed at point `18 · (r / 512) + 17`), so each output array ends
  holding its term row by row. The host lines after the region take the two logarithms, subtract, sum and negate: the loss.
-/
import proofs.«120487_j44160853738083_2_alg».proof.Proof.KVAcc
import proofs.«120487_j44160853738083_2_alg».proof.Proof.RowSums
import proofs.«120487_j44160853738083_2_alg».proof.Proof.TailIsLoss
import Idealize.ShloMosaic.Lib.StableHlo.Run

set_option maxRecDepth 16384

noncomputable section

namespace Cert.KernelIdeal.KValue

open Cert.KernelIdeal Cert.KernelIdeal.Gen Cert.KernelIdeal.Body Cert.KSide Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

variable (ρ : Dev nD → PrngReg)

/-- The three argument arrays, as matrices of extended reals. -/
abbrev argImg (c : Dev nD) : Mat 4096 1024 := m ((c : Thread nD τ).loc main_arg0)
abbrev argPos (c : Dev nD) : Mat 4096 1024 := m ((c : Thread nD τ).loc main_arg1)
abbrev argOth (c : Dev nD) : Mat 32768 1024 := m ((c : Thread nD τ).loc main_arg2)

/-- What the first output's array ends holding: row by row the positive term. -/
def outPos (c : Dev nD) : Buf (Elt Ideal) ((c : Thread nD τ).loc main_v4_0) :=
  fun i => posSum (argImg m c) (argPos m c) (⟨(i 0).val, (i 0).isLt⟩ : Fin 4096)

/-- What the second output's array ends holding: row by row the other term. -/
def outOth (c : Dev nD) : Buf (Elt Ideal) ((c : Thread nD τ).loc main_v4_1) :=
  fun i => othSum (argImg m c) (argOth m c) (⟨(i 0).val, (i 0).isLt⟩ : Fin 4096)

/-- WHAT A FLUSHING POINT WRITES BACK into the first output: its block of `outPos`. -/
theorem flushed2_eq (c : Dev nD) (t : Fin cfg0.N) (hf : (cfg0.win 2).flush t = true) :
    (dats m 0 c).flushed 2 t = ((cfg0.win 2).blk t).view.read (Elt Ideal) (outPos m c) := by
  have ht := lt144 t
  have h17 : t.val % 18 = 17 := (flush0_2 t).mp hf
  show (cfg0.win 2).cut (grid0.coords t) ((dats m 0 c).after 2 t) = _
  rw [after2]
  funext y
  obtain ⟨p, q, rfl⟩ : ∃ (p : Fin 512) (q : Fin 1), y = ix2 p q := ⟨y 0, y 1, eq_ix2 y⟩
  obtain rfl : q = 0 := Subsingleton.elim _ _
  rw [View.read_apply]
  show k0_pay6 (F := Ideal) (accAt m c t.val t.isLt).1 (ix2 p 0) = outPos m c (((cfg0.win 2).blk t).view.emb (ix2 p 0))
  rw [pay6_at]
  have e : ∀ l : Fin 128, (accAt m c t.val t.isLt).1 (ix2 p l) = ∑ j ∈ Finset.range 2, tileTerm m scalePos c (t.val / 18) j p l := fun l => by
    rw [(acc_eq m c t.val t.isLt p l).1, h17]
    norm_num
  rw [Finset.sum_congr rfl fun l _ => e l, lanes_pos m c (t.val / 18) (by omega) p]
  unfold outPos
  congr 1
  apply Fin.ext
  show 512 * (t.val / 18) + p.val = win0_2.index t 0 * 512 + 1 * p.val
  rw [(index2 t).1]; omega

set_option maxRecDepth 131072 in
/-- WHAT A FLUSHING POINT WRITES BACK into the second output: its block of `outOth`. -/
theorem flushed3_eq (c : Dev nD) (t : Fin cfg0.N) (hf : (cfg0.win 3).flush t = true) :
    (dats m 0 c).flushed 3 t = ((cfg0.win 3).blk t).view.read (Elt Ideal) (outOth m c) := by
  have ht := lt144 t
  have h17 : t.val % 18 = 17 := (flush0_3 t).mp hf
  show (cfg0.win 3).cut (grid0.coords t) ((dats m 0 c).after 3 t) = _
  rw [after3]
  funext y
  obtain ⟨p, q, rfl⟩ : ∃ (p : Fin 512) (q : Fin 1), y = ix2 p q := ⟨y 0, y 1, eq_ix2 y⟩
  obtain rfl : q = 0 := Subsingleton.elim _ _
  rw [View.read_apply]
  show k0_pay7 (F := Ideal) (accAt m c t.val t.isLt).2 (ix2 p 0) = outOth m c (((cfg0.win 3).blk t).view.emb (ix2 p 0))
  rw [pay7_at]
  have e : ∀ l : Fin 128, (accAt m c t.val t.isLt).2 (ix2 p l) = ∑ j ∈ Finset.Ico 2 18, tileTerm m scaleOth c (t.val / 18) j p l := fun l => by
    rw [(acc_eq m c t.val t.isLt p l).2, h17]
  rw [Finset.sum_congr rfl fun l _ => e l, lanes_oth m c (t.val / 18) (by omega) p]
  unfold outOth
  congr 1
  apply Fin.ext
  show 512 * (t.val / 18) + p.val = win0_3.index t 0 * 512 + 1 * p.val
  rw [(index3 t).1]; omega

/-- An index of the first output's array is in point `t`'s block iff each coordinate is in the block's range. -/
theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v4_0).slice (win0_2.rect t)).set ↔ _
  rw [View.set_slice_whole, Rect.mem_set_unit]
  exact Iff.rfl

theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v4_1).slice (win0_3.rect t)).set ↔ _
  rw [View.set_slice_whole, Rect.mem_set_unit]
  exact Iff.rfl

/-- The point that flushes the block holding row `r`: the last column tile of row tile `r / 512`. -/
def flushPoint (r : ℕ) (hr : r < 4096) : Fin cfg0.N := ⟨18 * (r / 512) + 17, by rw [show cfg0.N = 144 from N_0]; omega⟩

/-- THE FIRST OUTPUT ARRAY after the run. -/
theorem final2 (c : Dev nD) : (dats m 0 c).arrAt 2 cfg0.N = outPos m c :=
  (dats m 0 c).arrAt_eq_of_cover 2 (outPos m c) (flushed2_eq m c) fun i => by
    have hi0 : (i 0).val < 4096 := (i 0).isLt
    have hi1 : (i 1).val < 1 := (i 1).isLt
    refine ⟨flushPoint (i 0).val hi0, (flush0_2 _).mpr (by show (18 * ((i 0).val / 512) + 17) % 18 = 17; omega), ?_⟩
    rw [mem_blk2]
    intro a
    match a with
    | ⟨0, _⟩ =>
      show win0_2.index (flushPoint (i 0).val hi0) 0 * 512 ≤ (i 0).val ∧ (i 0).val < win0_2.index (flushPoint (i 0).val hi0) 0 * 512 + 512
      rw [(index2 _).1]
      show (18 * ((i 0).val / 512) + 17) / 18 * 512 ≤ (i 0).val ∧ (i 0).val < (18 * ((i 0).val / 512) + 17) / 18 * 512 + 512
      omega
    | ⟨1, _⟩ =>
      show win0_2.index (flushPoint (i 0).val hi0) 1 * 1 ≤ (i 1).val ∧ (i 1).val < win0_2.index (flushPoint (i 0).val hi0) 1 * 1 + 1
      rw [(index2 _).2]; omega

/-- THE SECOND OUTPUT ARRAY after the run. -/
theorem final3 (c : Dev nD) : (dats m 0 c).arrAt 3 cfg0.N = outOth m c :=
  (dats m 0 c).arrAt_eq_of_cover 3 (outOth m c) (flushed3_eq m c) fun i => by
    have hi0 : (i 0).val < 4096 := (i 0).isLt
    have hi1 : (i 1).val < 1 := (i 1).isLt
    refine ⟨flushPoint (i 0).val hi0, (flush0_3 _).mpr (by show (18 * ((i 0).val / 512) + 17) % 18 = 17; omega), ?_⟩
    rw [mem_blk3]
    intro a
    match a with
    | ⟨0, _⟩ =>
      show win0_3.index (flushPoint (i 0).val hi0) 0 * 512 ≤ (i 0).val ∧ (i 0).val < win0_3.index (flushPoint (i 0).val hi0) 0 * 512 + 512
      rw [(index3 _).1]
      show (18 * ((i 0).val / 512) + 17) / 18 * 512 ≤ (i 0).val ∧ (i 0).val < (18 * ((i 0).val / 512) + 17) / 18 * 512 + 512
      omega
    | ⟨1, _⟩ =>
      show win0_3.index (flushPoint (i 0).val hi0) 1 * 1 ≤ (i 1).val ∧ (i 1).val < win0_3.index (flushPoint (i 0).val hi0) 1 * 1 + 1
      rw [(index3 _).2]; omega

/-- THE RESULT: what the host lines after the region leave in the result buffer is the loss of the argument arrays. -/
theorem result_eq (c : Dev nD) :
    Pipeline.afterTail₀ cfgs (dats m) 0 (V0 m) [hostOps1] c main_v9 = fun _ => loss (argImg m c) (argPos m c) (argOth m c) := by
  unfold Pipeline.afterTail₀
  show StableHlo.after hostOps1 _ (Proc.devRef .tc main_v9) = _
  after_results
  rw [show Pipeline.withArrays spec0 c (V0 m c) (fun w => (dats m 0 c).arrAt w cfg0.N) (Proc.devRef .tc main_v4_0) = outPos m c from
      (Pipeline.withArrays_arr spec0 launch0.win.arr_inj c _ _ 2).trans (final2 m c),
    show Pipeline.withArrays spec0 c (V0 m c) (fun w => (dats m 0 c).arrAt w cfg0.N) (Proc.devRef .tc main_v4_1) = outOth m c from
      (Pipeline.withArrays_arr spec0 launch0.win.arr_inj c _ _ 3).trans (final3 m c)]
  exact tail_is_loss (outPos m c) (outOth m c) (argImg m c) (argPos m c) (argOth m c) (fun n => rfl) (fun n => rfl)

/-- THE KERNEL'S RUN, READ: every weakly fair execution of @main terminates with the result buffer at the loss of the
    argument arrays, and the three argument arrays unchanged. -/
theorem run : θ_run defs (onTc (τ := τ) (main (F := Ideal))) ⟨m, fun _ => 0, ρ⟩ (fun r => ∀ c : Dev nD,
      r.2.mem ((c.tc : Thread nD τ).loc main_v9) = (fun _ => loss (argImg m c) (argPos m c) (argOth m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main (F := Ideal) m ρ)

end Cert.KernelIdeal.KValue

end
-- ==== Proof.RefArith.lean ====
/-
  Facts on the extended reals that the reference side of the certificate uses.

  * The binary32 word 0x3DCCCCCD denotes 13421773 / 2²⁷, so dividing by it multiplies by 2²⁷ / 13421773;
    the word 0x41A00000 denotes 20.
  * For positive reals a, b: log (a / b) = log a − log b.
  * exp of a real is a positive real; a non-empty finite sum of positive reals is a positive real;
    a finite sum of products of reals is a real.  Hence for matrices all of whose entries are reals the
    positive term and the other term of every row are positive reals.
-/
import proofs.«120487_j44160853738083_2_alg».proof.Proof.Spec

noncomputable section

namespace Cert.RefSide

open Idealize.ShloMosaic Idealize.ShloMosaic.ValueIdx Cert.Spec

/-- The binary32 word of `0.1` denotes the rational `13421773 / 2²⁷`. -/
theorem ofBits_tenth : Ideal.ofBits .f32 0x3DCCCCCD#32 = ((13421773 / 134217728 : ℝ) : EReal) := by
  simp [Ideal.ofBits, Ideal.ieee, -EReal.coe_mul]; norm_num

/-- The binary32 word of `20` denotes the real `20`. -/
theorem ofBits_twenty : Ideal.ofBits .f32 0x41A00000#32 = ((20 : ℝ) : EReal) := by
  simp [Ideal.ofBits, Ideal.ieee, -EReal.coe_mul]; norm_num

/-- The scale of the positive term is the real `20`. -/
theorem scalePos_eq : scalePos = ((20 : ℝ) : EReal) := ofBits_twenty

/-- Dividing by the word of `0.1` multiplies by its exact reciprocal, at the infinities too. -/
theorem div_tenth (x : EReal) : Ideal.div x (Ideal.ofBits .f32 0x3DCCCCCD#32) = x * scaleOth := by
  rw [ofBits_tenth, Ideal.div_coe (by norm_num)]
  unfold scaleOth
  norm_num

/-- The logarithm of a quotient of positive reals is the difference of the logarithms. -/
theorem log_div_pos {a b : ℝ} (ha : 0 < a) (hb : 0 < b) :
    Ideal.log (Ideal.div (a : EReal) (b : EReal)) = Ideal.log (a : EReal) - Ideal.log (b : EReal) := by
  rw [Ideal.div_coe hb.ne', ← EReal.coe_mul, Ideal.log_coe, Ideal.log_coe, Ideal.log_coe,
    if_neg (not_le.mpr (mul_pos ha (one_div_pos.mpr hb))), if_neg (not_le.mpr ha), if_neg (not_le.mpr hb),
    ← EReal.coe_sub, mul_one_div, Real.log_div ha.ne' hb.ne']

/-- `exp` of a real is a positive real. -/
theorem exp_coe_pos (x : ℝ) : ∃ r : ℝ, 0 < r ∧ Ideal.exp (x : EReal) = (r : EReal) :=
  ⟨Real.exp x, Real.exp_pos x, rfl⟩

/-- The coercion of a finite sum of reals is the sum of the coercions. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of extended reals each of which is a real is a real. -/
theorem sum_real {ι : Type*} [Fintype ι] (f : ι → EReal) (hf : ∀ i, ∃ r : ℝ, f i = (r : EReal)) :
    ∃ a : ℝ, ∑ i, f i = (a : EReal) := by
  choose g hg using hf
  exact ⟨∑ i, g i, by rw [← coe_sum]; exact Finset.sum_congr rfl fun i _ => hg i⟩

/-- A non-empty finite sum of extended reals each of which is a positive real is a positive real. -/
theorem sum_pos_real {ι : Type*} [Fintype ι] [Nonempty ι] (f : ι → EReal)
    (hf : ∀ i, ∃ r : ℝ, 0 < r ∧ f i = (r : EReal)) : ∃ a : ℝ, 0 < a ∧ ∑ i, f i = (a : EReal) := by
  choose g hg0 hg using hf
  exact ⟨∑ i, g i, Finset.sum_pos (fun i _ => hg0 i) Finset.univ_nonempty,
    by rw [← coe_sum]; exact Finset.sum_congr rfl fun i _ => hg i⟩

/-- A row of reals against a row of reals is a real. -/
theorem sim_real {M : Nat} (img : Mat 4096 1024) (v : Mat M 1024)
    (himg : ∀ i, ∃ r : ℝ, img i = (r : EReal)) (hv : ∀ i, ∃ r : ℝ, v i = (r : EReal))
    (n : Fin 4096) (q : Fin M) : ∃ r : ℝ, sim img v n q = (r : EReal) := by
  unfold sim
  refine sum_real _ fun k => ?_
  obtain ⟨a, ha⟩ := himg (ix2 n k)
  obtain ⟨b, hb⟩ := hv (ix2 q k)
  exact ⟨a * b, by rw [ha, hb, EReal.coe_mul]⟩

/-- The positive term of a row of real matrices is a positive real. -/
theorem posSum_pos (img pos : Mat 4096 1024)
    (himg : ∀ i, ∃ r : ℝ, img i = (r : EReal)) (hpos : ∀ i, ∃ r : ℝ, pos i = (r : EReal))
    (n : Fin 4096) : ∃ a : ℝ, 0 < a ∧ posSum img pos n = (a : EReal) := by
  unfold posSum
  refine sum_pos_real _ fun q => ?_
  obtain ⟨s, hs⟩ := sim_real img pos himg hpos n q
  rw [hs, scalePos_eq, ← EReal.coe_mul]
  exact exp_coe_pos _

/-- The other term of a row of real matrices is a positive real. -/
theorem othSum_pos (img : Mat 4096 1024) (oth : Mat 32768 1024)
    (himg : ∀ i, ∃ r : ℝ, img i = (r : EReal)) (hoth : ∀ i, ∃ r : ℝ, oth i = (r : EReal))
    (n : Fin 4096) : ∃ a : ℝ, 0 < a ∧ othSum img oth n = (a : EReal) := by
  unfold othSum
  refine sum_pos_real _ fun q => ?_
  obtain ⟨s, hs⟩ := sim_real img oth himg hoth n q
  rw [hs, scaleOth, ← EReal.coe_mul]
  exact exp_coe_pos _

/-- For real matrices, the logarithm of the quotient of a row's two terms is the difference of their logarithms. -/
theorem log_div_terms (img pos : Mat 4096 1024) (oth : Mat 32768 1024)
    (himg : ∀ i, ∃ r : ℝ, img i = (r : EReal)) (hpos : ∀ i, ∃ r : ℝ, pos i = (r : EReal))
    (hoth : ∀ i, ∃ r : ℝ, oth i = (r : EReal)) (n : Fin 4096) :
    Ideal.log (Ideal.div (posSum img pos n) (othSum img oth n))
      = Ideal.log (posSum img pos n) - Ideal.log (othSum img oth n) := by
  obtain ⟨a, ha, ea⟩ := posSum_pos img pos himg hpos n
  obtain ⟨b, hb, eb⟩ := othSum_pos img oth himg hoth n
  rw [ea, eb]
  exact log_div_pos ha hb

end Cert.RefSide

end
-- ==== Proof.RefIsSpec.lean ====
/-
  The reference program computes the specification.

  Its result is read one operation at a time: each entry of the product `img · posᵀ` is a row of `img` against a
  row of `pos`; scaled by the word of 20 and exponentiated it is a summand of the positive term; the row sum
  starts from the zero word, which adds nothing.  The other term is read the same way, the division by the word
  of 0.1 being the product with its exact reciprocal.  The last reduction runs over every index of a 4096 × 1
  array, that is over the 4096 rows; on real inputs both terms of a row are positive reals, so the logarithm of
  their quotient is the difference of their logarithms.
-/
import proofs.«120487_j44160853738083_2_alg».proof.Proof.Gen.ReferenceIdeal.Read
import proofs.«120487_j44160853738083_2_alg».proof.Proof.Spec
import proofs.«120487_j44160853738083_2_alg».proof.Proof.RefArith

noncomputable section

namespace Cert.RefSide

open Idealize.ShloMosaic Idealize.ShloMosaic.ValueIdx Cert.Spec Cert.ReferenceIdeal Cert.ReferenceIdeal.Read

variable (x0 x1 : (⟨S4096x1024, .f32⟩ : BufTy).Contents (Elt Ideal))
variable (x2 : (⟨S32768x1024, .f32⟩ : BufTy).Contents (Elt Ideal))

/-! ### The positive term -/

/-- An entry of `img · posᵀ` is a row of `img` against a row of `pos`. -/
theorem dot_pos (n q : Fin 4096) : val_main_v1 (F := Ideal) x0 x1 (ix2 n q) = sim x0 x1 n q := by
  rw [val_main_v1_apply]
  unfold sim
  refine Finset.sum_congr rfl fun k _ => ?_
  rw [val_main_v0_apply]
  have el : lidx_main_v1 (ix2 n q) k = ix2 n k :=
    funext fun a => Fin.ext (by match a with | ⟨0, _⟩ => rfl | ⟨1, _⟩ => rfl)
  have er : idx_main_v0 (ridx_main_v1 (ix2 n q) k) = ix2 q k :=
    funext fun a => Fin.ext (by match a with | ⟨0, _⟩ => rfl | ⟨1, _⟩ => rfl)
  rw [el, er]

/-- A summand of the positive term. -/
theorem exp_pos (n q : Fin 4096) :
    val_main_v4 (F := Ideal) x0 x1 (ix2 n q) = Ideal.exp (sim x0 x1 n q * scalePos) := by
  rw [val_main_v4_apply, val_main_v3_apply, val_main_v2_apply, val_main_cst_apply, dot_pos]
  simp only [Ideal.hostUnary_exp_def, Ideal.mulf_def, Ideal.ofBits_def]
  rw [mul_comm]
  rfl

/-- The broadcast row sum of the exponentials is the positive term of the row. -/
theorem row_pos (n : Fin 4096) (c : Fin 1) :
    val_main_v6 (F := Ideal) x0 x1 (ix2 n c) = posSum x0 x1 n := by
  rw [val_main_v6_apply, val_main_v5_apply, val_main_cst_0_apply]
  simp only [Ideal.ofBits_def, Ideal.ofBits_zero_f32, zero_add]
  unfold posSum
  refine Finset.sum_congr rfl fun q _ => ?_
  rw [← exp_pos]
  exact congrArg _ (funext fun a => Fin.ext (by match a with | ⟨0, _⟩ => rfl | ⟨1, _⟩ => rfl))

/-! ### The other term -/

/-- An entry of `img · othᵀ` is a row of `img` against a row of `oth`. -/
theorem dot_oth (n : Fin 4096) (q : Fin 32768) :
    val_main_v8 (F := Ideal) x0 x2 (ix2 n q) = sim x0 x2 n q := by
  rw [val_main_v8_apply]
  unfold sim
  refine Finset.sum_congr rfl fun k _ => ?_
  rw [val_main_v7_apply]
  have el : lidx_main_v8 (ix2 n q) k = ix2 n k :=
    funext fun a => Fin.ext (by match a with | ⟨0, _⟩ => rfl | ⟨1, _⟩ => rfl)
  have er : idx_main_v7 (ridx_main_v8 (ix2 n q) k) = ix2 q k :=
    funext fun a => Fin.ext (by match a with | ⟨0, _⟩ => rfl | ⟨1, _⟩ => rfl)
  rw [el, er]

/-- A summand of the other term: dividing by the word of `0.1` multiplies by its reciprocal. -/
theorem exp_oth (n : Fin 4096) (q : Fin 32768) :
    val_main_v11 (F := Ideal) x0 x2 (ix2 n q) = Ideal.exp (sim x0 x2 n q * scaleOth) := by
  rw [val_main_v11_apply, val_main_v10_apply, val_main_v9_apply, val_main_cst_1_apply, dot_oth]
  simp only [Ideal.hostUnary_exp_def, Ideal.hostDivf_def, Ideal.ofBits_def]
  rw [div_tenth]

/-- The broadcast row sum of the exponentials is the other term of the row. -/
theorem row_oth (n : Fin 4096) (c : Fin 1) :
    val_main_v13 (F := Ideal) x0 x2 (ix2 n c) = othSum x0 x2 n := by
  rw [val_main_v13_apply, val_main_v12_apply, val_main_cst_2_apply]
  simp only [Ideal.ofBits_def, Ideal.ofBits_zero_f32, zero_add]
  unfold othSum
  refine Finset.sum_congr rfl fun q _ => ?_
  rw [← exp_oth]
  exact congrArg _ (funext fun a => Fin.ext (by match a with | ⟨0, _⟩ => rfl | ⟨1, _⟩ => rfl))

/-! ### The loss -/

/-- On real inputs the reference's result is the loss of the specification. -/
theorem reference_is_loss
    (h0 : ∀ i, ∃ r : ℝ, x0 i = (r : EReal)) (h1 : ∀ i, ∃ r : ℝ, x1 i = (r : EReal))
    (h2 : ∀ i, ∃ r : ℝ, x2 i = (r : EReal)) :
    val_main_v17 (F := Ideal) x0 x1 x2 = fun _ => loss x0 x1 x2 := by
  funext i
  rw [val_main_v17_apply, val_main_v16_apply, val_main_cst_3_apply]
  simp only [Ideal.hostNegf_def, Ideal.negf_def, Ideal.ofBits_def, Ideal.ofBits_zero_f32, zero_add]
  unfold loss
  rw [sum_idx2]
  refine congrArg Neg.neg (Finset.sum_congr rfl fun n _ => ?_)
  rw [Fin.sum_univ_one, val_main_v15_apply, val_main_v14_apply, row_pos, row_oth]
  simp only [Ideal.hostUnary_log_def, Ideal.hostDivf_def]
  exact log_div_terms x0 x1 x2 h0 h1 h2 n

end Cert.RefSide

end
-- ==== Proof.Finite.lean ====
/-
  Finite inputs are real inputs.

  The precondition says that on every device `|x| < +∞` holds at every entry of each of the three argument arrays
  (three conjunctions over all entries, joined by `and`).  An extended real whose absolute value `max x (−x)` lies
  below `+∞` is neither infinity, hence a real.
-/
import proofs.«120487_j44160853738083_2_alg».proof.Defs
import proofs.«120487_j44160853738083_2_alg».proof.Proof.Gen.Pre_finite_inputs
import Idealize.ShloMosaic.Lib.ReduceAll

noncomputable section

namespace Cert.RefSide

open Idealize.ShloMosaic Idealize.SL.Sem

/-- The scalar shape has one index. -/
instance subsingleton_scalar_idx : Subsingleton Cert.Pre_finite_inputs.S_.Idx := ⟨fun a b => funext fun d => d.elim0⟩

/-- The binary32 word `0x7F800000` denotes `+∞`. -/
theorem ofBits_inf : Ideal.ofBits .f32 0x7F800000#32 = ⊤ := by simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  have h' : max x (-x) < ⊤ := by
    by_contra hn
    simp [Ideal.cmp, hn] at h
  induction x using EReal.rec with
  | bot => simp at h'
  | coe r => exact ⟨r, rfl⟩
  | top => simp at h'

/-- Under the precondition every entry of each argument array is a real, on every device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨2, ![4096, 1024]⟩ : Shape).Idx, ∃ r : ℝ,
        (m ((c.tc : Thread Cert.KernelIdeal.nD Cert.KernelIdeal.τ).loc Cert.KernelIdeal.main_arg0) :
          (⟨2, ![4096, 1024]⟩ : Shape).Idx → EReal) i = (r : EReal))
    ∧ (∀ i : (⟨2, ![4096, 1024]⟩ : Shape).Idx, ∃ r : ℝ,
        (m ((c.tc : Thread Cert.KernelIdeal.nD Cert.KernelIdeal.τ).loc Cert.KernelIdeal.main_arg1) :
          (⟨2, ![4096, 1024]⟩ : Shape).Idx → EReal) i = (r : EReal))
    ∧ (∀ i : (⟨2, ![32768, 1024]⟩ : Shape).Idx, ∃ r : ℝ,
        (m ((c.tc : Thread Cert.KernelIdeal.nD Cert.KernelIdeal.τ).loc Cert.KernelIdeal.main_arg2) :
          (⟨2, ![32768, 1024]⟩ : Shape).Idx → EReal) i = (r : EReal)) := by
  have e := congrFun (h c) (fun a => a.elim0)
  dsimp only [Cert.Pre_finite_inputs.fn] at e
  obtain ⟨e01, e2⟩ := IntOp.andi_eq_one.1 e
  obtain ⟨e0, e1⟩ := IntOp.andi_eq_one.1 e01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i)⟩

end Cert.RefSide

end
-- ==== Proof.RefOnPre.lean ====
/-
  The reference's result under the precondition, as one equation.

  The precondition makes every entry of the kernel's three argument arrays a real; a memory that agrees with the
  kernel's on those arrays holds the same reals; and on real inputs the reference's last stage is the loss of the
  specification.
-/
import proofs.«120487_j44160853738083_2_alg».proof.Proof.RefIsSpec
import proofs.«120487_j44160853738083_2_alg».proof.Proof.Finite

noncomputable section

namespace Cert.RefSide

open Idealize.ShloMosaic Idealize.SL.Sem

/-- Under the kernel's precondition, the reference's last stage at an agreeing memory's arguments is the loss at the
    kernel's arguments, on every device. -/
theorem reference_on_pre
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.Read.val_main_v17 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = fun _ => Cert.Spec.loss
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [(hagree c).1, (hagree c).2.1, (hagree c).2.2]
  exact reference_is_loss _ _ _ (args_real m hpre c).1 (args_real m hpre c).2.1 (args_real m hpre c).2.2

end Cert.RefSide

end
-- ==== Proof.RefRun.lean ====
/-
  The reference's run under the precondition.

  From a memory that agrees with the kernel's on the three argument arrays, the reference program terminates with
  its result equal to the loss of the specification at the kernel's arguments and its own arguments unchanged:
  the precondition makes every entry a real, and on real inputs the reference computes the loss.
-/
import proofs.«120487_j44160853738083_2_alg».proof.Proof.RefOnPre

noncomputable section

namespace Cert.RefSide

open Idealize.ShloMosaic Idealize.SL.Sem

/-- Under the kernel's precondition, from an agreeing memory, the reference ends with the specification's loss. -/
theorem reference_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v17)
          = (fun _ => Cert.Spec.loss
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => ⟨by
      rw [(h c).1, Cert.ReferenceIdeal.Read.val_main_v17_eq]
      exact reference_on_pre m m' hpre hagree c,
    (h c).2⟩) (Cert.ReferenceIdeal.Value.run (F := Ideal) m' g')

end Cert.RefSide

end
-- ==== Proof.lean ====
/-
  A contrastive loss over image rows, positive rows and other rows: a fused kernel against its plain reference.

  For img : 4096 × 1024, pos : 4096 × 1024, oth : 32768 × 1024 both programs compute
      − ∑ₙ ( log (∑_q exp (20 · img n · pos q)) − log (∑_q exp (r · img n · oth q)) ).
  The kernel streams the 4096 + 32768 rows of pos and oth as eighteen column tiles of 2048 rows past each of eight row
  tiles of 512 image rows; per tile it multiplies the image block with the tile, scales, exponentiates, and adds the
  sixteen 128-lane chunks of each row into one of two lane-wide accumulators (the first two tiles are positive rows, the
  other sixteen are other rows); after the last tile of a row tile it sums each accumulator along its lanes into the
  block of an output; the host then takes the two logarithms, subtracts, sums and negates. The reference forms the two
  full products, scales one by 20 and divides the other by the binary32 word of 0.1, exponentiates, sums along the rows,
  divides, takes the logarithm, sums and negates.

  The two agree at the ideal instance for two reasons. The kernel's scale of the other term is the source's
  1 / TEMPERATURE with TEMPERATURE = 0.1: its binary32 word 10.0 is named, and denotes the exact reciprocal r = 2²⁷ / 13421773
  of the word 13421773 / 2²⁷ the reference divides by; dividing by that word IS multiplying by r on every extended real.
  And a sum over the extended reals may be regrouped freely (lanes × tiles × chunks cover every column once), while
  log (a / b) = log a − log b holds for positive reals a, b — which the two row sums are once every input entry is finite
  (each is a non-empty sum of exponentials of reals): the one place the precondition is used.

  The modules: Spec (the common specification); the body of the kernel at each of its four kinds of column tile and the
  region's proof data, obligation and run (BodyI*, and BodyB* for the kernel as printed at the word level: one text, two
  instances); the accumulators' closed form by induction on the grid point (KVAcc) over each store's payload read at an
  index (PayAt); the blocks as pieces of their arrays (KVBlocks, StagedInputs); the row sums as the specification's terms
  (Regroup, RowSums); the output arrays, the host tail and the kernel's run (KVFinal, TailIsLoss); the reference read as
  the specification on finite inputs (RefArith, RefIsSpec, Finite, RefOnPre, RefRun).
-/
import proofs.«120487_j44160853738083_2_alg».proof.Defs
import proofs.«120487_j44160853738083_2_alg».proof.Proof.Gen.Kernel
import proofs.«120487_j44160853738083_2_alg».proof.Proof.Gen.KernelIdeal
import proofs.«120487_j44160853738083_2_alg».proof.Proof.Gen.ReferenceIdeal
import proofs.«120487_j44160853738083_2_alg».proof.Proof.Gen.Pre_finite_inputs
import proofs.«120487_j44160853738083_2_alg».proof.Proof.Gen.ReferenceIdeal.Run
import proofs.«120487_j44160853738083_2_alg».proof.Proof.Gen.ReferenceIdeal.Read
import proofs.«120487_j44160853738083_2_alg».proof.Proof.BodyB
import proofs.«120487_j44160853738083_2_alg».proof.Proof.BodyI
import proofs.«120487_j44160853738083_2_alg».proof.Proof.KVFinal
import proofs.«120487_j44160853738083_2_alg».proof.Proof.RefRun
import Idealize.ShloMosaic.PureOps.IdealRules
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the word of 10.0 is named, and the name denotes 2²⁷ / 13421773. -/
theorem preserves : Cert.preserves_Kernel_KernelIdeal :=
  IdealRules.named_const.statement Cert.KernelIdeal.κ "inv_temperature" .f32 0x41200000#32 ((134217728 / 13421773 : ℝ) : EReal) rfl

/-- From memories agreeing on finite arguments both idealized programs end with the loss of those arguments. -/
theorem algebraic : Cert.algebraic_KernelIdeal_ReferenceIdeal := fun m ρ m' ρ' hpre hagree =>
  ⟨fun c _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ,
    Cert.RefSide.reference_run m m' ρ' hpre hagree⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
